-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S1024x512 : Shape := ⟨2, ![1024, 512]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  transposes_S1024x512_p1_0_S512x1024 : S1024x512.Transposes [1, 0] S512x1024
  reduces_S1024x1024_S1024 : S1024x1024.Reduces [1] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reducesTo_S8192x1_S_d0_1 : S8192x1.ReducesTo [0, 1] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Region0.lean ====
/-
  The row-normalisation region of the kernel program, at the buffer contents `V` it is entered with.

  The region walks the 8 row blocks of the feature array.  At block `t` the body reads the block
  (1024 rows of 512 columns), divides every entry by its row's guarded Euclidean norm, and writes the
  quotient, narrowed, over the whole of the result block.  This module states what each window's buffer
  holds before and after the body at a point, runs the body symbolically against that description,
  and packages the outcome as the pipeline's proof data and its body obligation.
-/
import proofs.«108453_j6356551598243_1_alg».proof.Proof.Gen.KernelIdeal.Launch
import proofs.«108453_j6356551598243_1_alg».proof.Proof.Gen.KernelIdeal.Skeleton
import proofs.«108453_j6356551598243_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have 1024 x 512 entries, and a membership proof recurses once per coordinate
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the 1024 rows `1024 t … 1024 t + 1023` of its array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point, for any proof data whose array is
    `V`'s and whose body leaves the block in place: the window is fetched whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole 1024 x 512 block -/

abbrev r0_0 : Rect S1024x512 := Rect.unit (s := S1024x512) ![0, 0] S1024x512.size inb_S1024x512_S1024x512_0_0

/-! ## What the body leaves in the result window's buffer -/

/-- The result buffer after the body, from the feature block: the one store, of the normalised and
    narrowed block, over everything. -/
def out0_1 (x0 : Vec F S1024x512 .f32) : Vec F S1024x512 .bf16 :=
  View.canon [⟨r0_0, k0_pay1 (View.ld x0 r0_0)⟩]

/-- The one store covers the buffer. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The body on whole buffers, the feature buffer at `x0` and the result buffer at anything, runs to the
    continuation holding the feature buffer as it was and the result buffer at `out0_1 x0`. -/
theorem sound_kernel0 (c : Dev nD) (E : Set ℕ) (i : grid0.Coords) (arg1 : Memref sig .tc .vmem S1024x512 .f32) (harg1 : arg1.IsWhole) (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point
    `t` the feature buffer at its block and the result buffer at `out0_1` of that block; the invariant the
    scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The feature window's current buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the feature buffer holds its block, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1Runs.lean ====
/-
  The second region (the loss kernel over an 8 × 8 grid of 1024 × 1024 tiles), its body run once per control
  case.  A point (i, k) handles row tile i against column tile k; three 1024 × 1 accumulators are carried from
  point to point: the row sums of exp s, of m · s and of m.  At k = 0 they are reset and then added to; at
  0 < k < 7 they are added to; at k = 7 they are added to and log(∑ exp s) − (∑ m·s)/(∑ m) is stored into the
  output block.  The two conditions are decided in closed form over the grid (the point number mod 8).
-/
import proofs.«108453_j6356551598243_1_alg».proof.Proof.Gen.KernelIdeal.Launch
import proofs.«108453_j6356551598243_1_alg».proof.Proof.Gen.KernelIdeal.Skeleton
import proofs.«108453_j6356551598243_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The two conditions of the body, from the grid coordinates -/

/-- "This is the first column tile" (the accumulators are reset), as the body computes it. -/
abbrev cond1_0 (i : grid1.Coords) : Prop := (Scalar.cmpi .ne (Scalar.extui (Scalar.cmpi .eq (BitVec.ofNat 32 (i 1).val) 0#32)) 0#32) = 1#1
/-- It holds at the points whose column tile is 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last column tile" (the row losses are stored), as the body computes it. -/
abbrev cond1_1 (i : grid1.Coords) : Prop := k1_cond2 i = 1#1
/-- It holds at the points whose column tile is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the row losses are not stored the output block is idle, -/
theorem idleAt1_4 : ∀ t : Fin cfg1.N, ¬cond1_1 (grid1.coords t) → cfg1.idle 4 (grid1.coords t) = true := by decide +kernel
/-- and is not written back there; -/
theorem noFlush1_4 : ∀ t : Fin cfg1.N, ¬cond1_1 (grid1.coords t) → (cfg1.win 4).flush t = false := by decide +kernel
/-- where they are stored it is live. -/
theorem liveAt1_4 : ∀ t : Fin cfg1.N, cond1_1 (grid1.coords t) → cfg1.idle 4 (grid1.coords t) = false := by decide +kernel

/-! ## The staging buffers and the accumulators as the body is handed them -/

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The three accumulators (row sums of exp s, of m·s, of m): whole scoped buffers of the kernel's own. -/
abbrev scM0 : Memref sig .tc .vmem S1024x1 .f32 := Memref.whole cc1_scratch0
abbrev scM1 : Memref sig .tc .vmem S1024x1 .f32 := Memref.whole cc1_scratch1
abbrev scM2 : Memref sig .tc .vmem S1024x1 .f32 := Memref.whole cc1_scratch2
/-- One buffer of each kind through which contents are stated (the choice does not matter). -/
abbrev VO4 : View sig .tc .vmem S1024x1 .f32 := (Memref.whole cc1_stg4_0 : Memref sig .tc .vmem S1024x1 .f32).view
abbrev VS0 : View sig .tc .vmem S1024x1 .f32 := scM0.view
abbrev VS1 : View sig .tc .vmem S1024x1 .f32 := scM1.view
abbrev VS2 : View sig .tc .vmem S1024x1 .f32 := scM2.view

/-! ## The body, case by case -/

set_option maxHeartbeats 4000000 in
/-- The body at a point of case A (the first column tile: the three accumulators are reset before they are added to): on whole staging
    buffers holding the four input blocks it runs to the end, leaves the inputs as they were and each accumulator with
    the pieces this run's stores wrote; the output block is not touched. The pieces are the body's stores, in program order. -/
noncomputable def bodyRunA (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) :
    { LS : List (View.Piece (Elt F) S1024x1 .f32) × List (View.Piece (Elt F) S1024x1 .f32) × List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨⟨?_, ?_, ?_⟩, fun xi4 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- The body at a point of case B (a middle column tile: the accumulators are added to): on whole staging
    buffers holding the four input blocks it runs to the end, leaves the inputs as they were and each accumulator with
    the pieces this run's stores wrote; the output block is not touched. The pieces are the body's stores, in program order. -/
noncomputable def bodyRunB (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    { LS : List (View.Piece (Elt F) S1024x1 .f32) × List (View.Piece (Elt F) S1024x1 .f32) × List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨⟨?_, ?_, ?_⟩, fun xi4 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- The body at a point of case C (the last column tile: the accumulators are added to and the row losses stored): on whole staging
    buffers holding the four input blocks it runs to the end, leaves the inputs as they were and each accumulator with
    the pieces this run's stores wrote; the output block holds the pieces of its one store. The pieces are the body's stores, in program order. -/
noncomputable def bodyRunC (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    Σ' (L4 : List (View.Piece (Elt F) S1024x1 .f32)), { LS : List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨?_, ⟨?_, ?_, ?_⟩, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.R1

end
-- ==== Proof.Region1.lean ====
/-
  The second region's proof data and body obligation.  What the output block and the three accumulators hold
  after each point is defined by recursion on the point: the case the point is in (first, middle or last
  column tile), run on the point's four input blocks and — off the first column tile — on what the point
  before left in the accumulators.  Between points the accumulators are held at exactly those contents; the
  output block is written back only at the last column tile of each row tile and is idle elsewhere.  The two
  windows on the normalised rows (row tile i, column tile k) read one array, each at half the share.
-/
import proofs.«108453_j6356551598243_1_alg».proof.Proof.Gen.KernelIdeal.Launch
import proofs.«108453_j6356551598243_1_alg».proof.Proof.Gen.KernelIdeal.Skeleton
import proofs.«108453_j6356551598243_1_alg».proof.Proof.Gen.KernelIdeal.Points
import proofs.«108453_j6356551598243_1_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each case leaves -/

/-- Case A's pieces for accumulator 0 cover it. -/
theorem scoverA_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.1, y ∈ pc.1.set :=
  View.cover_of_tiledL (bodyRunA c i arg2 harg2 arg3 harg3 arg4 harg4 arg5 harg5 arg6 harg6 arg7 harg7 arg8 harg8 arg9 harg9 hc0 hc1 x0 x1 x2 x3).1.1 S1024x1.size (by sl_kernel_rfl) y
/-- What case A leaves in accumulator 0: its pieces read back. -/
def soutA_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS0.read (Elt F) (VS0.writes (Elt F) VS0.junk (bodyRunA c i arg2 harg2 arg3 harg3 arg4 harg4 arg5 harg5 arg6 harg6 arg7 harg7 arg8 harg8 arg9 harg9 hc0 hc1 x0 x1 x2 x3).1.1)

/-- Case A's pieces for accumulator 1 cover it. -/
theorem scoverA_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.2.1, y ∈ pc.1.set :=
  View.cover_of_tiledL (bodyRunA c i arg2 harg2 arg3 harg3 arg4 harg4 arg5 harg5 arg6 harg6 arg7 harg7 arg8 harg8 arg9 harg9 hc0 hc1 x0 x1 x2 x3).1.2.1 S1024x1.size (by sl_kernel_rfl) y
/-- What case A leaves in accumulator 1: its pieces read back. -/
def soutA_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS1.read (Elt F) (VS1.writes (Elt F) VS1.junk (bodyRunA c i arg2 harg2 arg3 harg3 arg4 harg4 arg5 harg5 arg6 harg6 arg7 harg7 arg8 harg8 arg9 harg9 hc0 hc1 x0 x1 x2 x3).1.2.1)

/-- Case A's pieces for accumulator 2 cover it. -/
theorem scoverA_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.2.2, y ∈ pc.1.set :=
  View.cover_of_tiledL (bodyRunA c i arg2 harg2 arg3 harg3 arg4 harg4 arg5 harg5 arg6 harg6 arg7 harg7 arg8 harg8 arg9 harg9 hc0 hc1 x0 x1 x2 x3).1.2.2 S1024x1.size (by sl_kernel_rfl) y
/-- What case A leaves in accumulator 2: its pieces read back. -/
def soutA_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS2.read (Elt F) (VS2.writes (Elt F) VS2.junk (bodyRunA c i arg2 harg2 arg3 harg3 arg4 harg4 arg5 harg5 arg6 harg6 arg7 harg7 arg8 harg8 arg9 harg9 hc0 hc1 x0 x1 x2 x3).1.2.2)

/-- Case B's pieces for accumulator 0 cover it. -/
theorem scoverB_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.1, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.1 S1024x1.size (by sl_kernel_rfl) y
/-- What case B leaves in accumulator 0: its pieces read back. -/
def soutB_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS0.read (Elt F) (VS0.writes (Elt F) VS0.junk (bodyRunB c i arg2 harg2 arg3 harg3 arg4 harg4 arg5 harg5 arg6 harg6 arg7 harg7 arg8 harg8 arg9 harg9 hc0 hc1 x0 x1 x2 x3 xs0 xs1 xs2).1.1)

/-- Case B's pieces for accumulator 1 cover it. -/
theorem scoverB_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.2.1, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.2.1 S1024x1.size (by sl_kernel_rfl) y
/-- What case B leaves in accumulator 1: its pieces read back. -/
def soutB_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS1.read (Elt F) (VS1.writes (Elt F) VS1.junk (bodyRunB c i arg2 harg2 arg3 harg3 arg4 harg4 arg5 harg5 arg6 harg6 arg7 harg7 arg8 harg8 arg9 harg9 hc0 hc1 x0 x1 x2 x3 xs0 xs1 xs2).1.2.1)

/-- Case B's pieces for accumulator 2 cover it. -/
theorem scoverB_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.2.2, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.2.2 S1024x1.size (by sl_kernel_rfl) y
/-- What case B leaves in accumulator 2: its pieces read back. -/
def soutB_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS2.read (Elt F) (VS2.writes (Elt F) VS2.junk (bodyRunB c i arg2 harg2 arg3 harg3 arg4 harg4 arg5 harg5 arg6 harg6 arg7 harg7 arg8 harg8 arg9 harg9 hc0 hc1 x0 x1 x2 x3 xs0 xs1 xs2).1.2.2)

/-- Case C's pieces for accumulator 0 cover it. -/
theorem scoverC_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.1 S1024x1.size (by sl_kernel_rfl) y
/-- What case C leaves in accumulator 0: its pieces read back. -/
def soutC_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS0.read (Elt F) (VS0.writes (Elt F) VS0.junk (bodyRunC c i arg2 harg2 arg3 harg3 arg4 harg4 arg5 harg5 arg6 harg6 arg7 harg7 arg8 harg8 arg9 harg9 hc0 hc1 x0 x1 x2 x3 xs0 xs1 xs2).2.1.1)

/-- Case C's pieces for accumulator 1 cover it. -/
theorem scoverC_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.2.1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.2.1 S1024x1.size (by sl_kernel_rfl) y
/-- What case C leaves in accumulator 1: its pieces read back. -/
def soutC_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS1.read (Elt F) (VS1.writes (Elt F) VS1.junk (bodyRunC c i arg2 harg2 arg3 harg3 arg4 harg4 arg5 harg5 arg6 harg6 arg7 harg7 arg8 harg8 arg9 harg9 hc0 hc1 x0 x1 x2 x3 xs0 xs1 xs2).2.1.2.1)

/-- Case C's pieces for accumulator 2 cover it. -/
theorem scoverC_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.2.2, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.2.2 S1024x1.size (by sl_kernel_rfl) y
/-- What case C leaves in accumulator 2: its pieces read back. -/
def soutC_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS2.read (Elt F) (VS2.writes (Elt F) VS2.junk (bodyRunC c i arg2 harg2 arg3 harg3 arg4 harg4 arg5 harg5 arg6 harg6 arg7 harg7 arg8 harg8 arg9 harg9 hc0 hc1 x0 x1 x2 x3 xs0 xs1 xs2).2.1.2.2)

/-- Case C's one store covers the output block. -/
theorem coverC_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).1 S1024x1.size (by sl_kernel_rfl) y
/-- What case C leaves in the output block: its piece read back. -/
def outC_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VO4.read (Elt F) (VO4.writes (Elt F) VO4.junk (bodyRunC c i arg2 harg2 arg3 harg3 arg4 harg4 arg5 harg5 arg6 harg6 arg7 harg7 arg8 harg8 arg9 harg9 hc0 hc1 x0 x1 x2 x3 xs0 xs1 xs2).1)

section AtV
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation, point by point -/

/-- What the output block and the three accumulators hold after the body at position `n`. -/
def outsAt1 (c : Dev nD) : (n : ℕ) → n < cfg1.N → Vec F S1024x1 .f32 × Vec F S1024x1 .f32 × Vec F S1024x1 .f32 × Vec F S1024x1 .f32
  | 0, hn => ((VO4.read (Elt F) (VO4.writes (Elt F) VO4.junk [])), soutA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        ((VO4.read (Elt F) (VO4.writes (Elt F) VO4.junk [])), soutA_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (outC_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        ((VO4.read (Elt F) (VO4.writes (Elt F) VO4.junk [])), soutB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutB_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = ((VO4.read (Elt F) (VO4.writes (Elt F) VO4.junk [])), soutA_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t), soutA_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t), soutA_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ((VO4.read (Elt F) (VO4.writes (Elt F) VO4.junk [])), soutB_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutB_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutB_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC_4 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point every scoped buffer the region does not stage is at some contents; afterwards the three
    accumulators are at what the point before left, the rest as before. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c n hn).2.1) ∗ owns (c : Thread nD τ) scM1 fullShare ((outsAt1 V c n hn).2.2.1) ∗ owns (c : Thread nD τ) scM2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c n hn).2.1) ∗ owns (c : Thread nD τ) scM1 fullShare ((outsAt1 V c n hn).2.2.1) ∗ owns (c : Thread nD τ) scM2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c (n - 1) (by omega)).2.1) ∗ owns (c : Thread nD τ) scM1 fullShare ((outsAt1 V c (n - 1) (by omega)).2.2.1) ∗ owns (c : Thread nD τ) scM2 fullShare ((outsAt1 V c (n - 1) (by omega)).2.2.2)) ∗ (∃ r, prngReg c r)) := by
  cases n with
  | zero => exact absurd rfl hz
  | succ n => rfl

end AtV

/-- The scoped buffers the region does not stage, with the accumulators as owned buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

section AtV2
variable (V : (c : Dev nD) → (b : Ref sig .tc) → Buf (Elt F) ((c : Thread nD τ).loc b))

/-! ## The proof data -/

/-- The second pipeline's proof data on core `c`: the arrays as the region finds them; after the body each input's
    buffer at its block and the output's at what the accumulation says; the invariant carrying the accumulators;
    the two windows on the normalised rows each at half the share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the closed forms say which case the point is in;
    the invariant hands the body the accumulators at what the point before left (at anything at the very first
    point) and takes them back at this point's contents; the output block is handed back untouched off the last
    column tile and holds the row losses at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutA_0 soutA_1 soutA_2; (try dsimp only)
      by_cases hz : t.val = 0
      ·
        rw [PhiS_castSucc V c t, PhiS_zero V c _ _ hz, PhiA1_eq]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC_4 soutC_0 soutC_1 soutC_2; (try dsimp only)
      by_cases hz : t.val = 0
      · exfalso; omega
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunC c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB_0 soutB_1 soutB_2; (try dsimp only)
      by_cases hz : t.val = 0
      · exfalso; omega
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunB c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨He1, He2, He3, He4, HS0, HS1, HS2⟩, Hg⟩
  isplitr [Hg]
  swap; · iexact Hg
  isplitl [He1]; · iexact He1
  isplitl [He2]; · iexact He2
  isplitl [He3]; · iexact He3
  isplitl [He4]; · iexact He4
  isplitl [HS0]; · iexists _; iexact HS0
  isplitl [HS1]; · iexists _; iexact HS1
  iexists _; iexact HS2

end AtV2

end Cert.KernelIdeal.R1

end
-- ==== Proof.Region1Arrays.lean ====
/-
  The second region's arrays among the core's unscoped buffers.

  The region's five windows sit on four arrays: the two windows on the normalised rows read ONE
  array, each holding half of its share; the two label windows and the output window hold their
  arrays whole.  Entering the region, the core's unscoped buffers split into the windows' arrays
  (the shared one cut in two halves of its share) and the rest; leaving it, the halves are put
  back together and the buffers are whole again, the output array at what the write-backs left.
-/
import proofs.«108453_j6356551598243_1_alg».proof.Proof.Region1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The buffers behind the five windows' arrays are four. -/
theorem arr_image : Finset.univ.image (Pipeline.arrRef spec1) = ([main_v0, main_v1, main_v2, main_v3] : List (Ref sig .tc)).toFinset := by
  decide

/-- A core's unscoped buffers are the four buffers behind the windows' arrays and the rest. -/
theorem bufs_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (Ix := Unit) (Name := ℕ) (U := UR sig nD τ) (Lvl := ℕ) cfgs 1 winFacts₀1.arr_unscoped c W

/-- The four buffers one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_v0, main_v1, main_v2, main_v3] arr_image (by decide) _

variable (V : (c : Dev nD) → (b : Ref sig .tc) → Buf (Elt F) ((c : Thread nD τ).loc b))

/-- The five windows' arrays one by one: the shared array's two halves, then the three whole ones. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)
          ∗ (((c : Thread nD τ).loc main_v3) ↦{fullShare} G 4)) := by
  unfold Dat.arrays
  rw [bigSep_W1]
  -- windows 0 and 1 are on one array: the first equation rewrites both
  rw [(arr_whole1 0).set_eq_univ, (arr_whole1 2).set_eq_univ, (arr_whole1 3).set_eq_univ, (arr_whole1 4).set_eq_univ]
  rfl

/-- ENTRY: a core's unscoped buffers at `V c` are the region's arrays at their entry contents — the array of
    normalised rows cut into the two halves of its share — and the unscoped rest. -/
theorem split1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [bufs_split1 c (V c)]
  refine sep_mono ?_ .rfl
  rw [arrBufs1_eq, arrays1_eq]
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-- EXIT: the region's arrays after the last write-back — the two halves put back together — and the unscoped
    rest at `V c` are the core's unscoped buffers at any contents `V'` that has the output array at what the
    write-backs left and agrees with `V c` elsewhere. -/
theorem join1 (c : Dev nD) (V' : (b : Ref sig .tc) → Buf (Elt F) ((c : Thread nD τ).loc b))
    (h4 : (dat1 V c).arrAt 4 cfg1.N = V' main_v3) (hrest : ∀ b : Ref sig .tc, b ≠ main_v3 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [bufs_split1 c V']
  have hR : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    rw [hrest b (fun e => (Finset.mem_sdiff.mp hb).2 (by rw [e, arr_image]; decide))]
  rw [hR]
  refine sep_mono ?_ .rfl
  rw [arrBufs1_eq, arrays1_eq]
  rw [(dat1 V c).arrAt_in 0 rfl cfg1.N, (dat1 V c).arrAt_in 1 rfl cfg1.N, (dat1 V c).arrAt_in 2 rfl cfg1.N,
    (dat1 V c).arrAt_in 3 rfl cfg1.N, h4, A_eq1, A_eq1, A_eq1, A_eq1,
    hrest main_v0 (by decide), hrest main_v1 (by decide), hrest main_v2 (by decide)]
  iintro ⟨H0l, H0r, H1, H2, H3⟩
  ihave H0 := (pointsTo_share (PosShare.mem_left_op_right fullShare)).2 $$ [H0l H0r]
  · isplitl [H0l] <;> iassumption
  isplitl [H0]; · iexact H0
  isplitl [H1]; · iexact H1
  isplitl [H2]; · iexact H2
  iexact H3

end Cert.KernelIdeal.R1

end
-- ==== Proof.Run.lean ====
/-
  The kernel program as a run: the normalisation region, the two label reshapes, the loss region, the final mean —
  four segments in order, each entered from what the one before left.  The unscoped buffers' contents at the five
  boundaries are a fold from the launch memory: a region changes only its output array (the normalised rows; the
  row losses), to what its write-backs leave; a stretch of host operations writes its own results.  Every weakly
  fair execution terminates and ends with every unscoped buffer at the last boundary's contents.
-/
import proofs.«108453_j6356551598243_1_alg».proof.Proof.Region0
import proofs.«108453_j6356551598243_1_alg».proof.Proof.Region1
import proofs.«108453_j6356551598243_1_alg».proof.Proof.Region1Arrays
import proofs.«108453_j6356551598243_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the normalisation region: its output array at what the write-backs leave, the rest as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the label reshapes. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the loss region: the row losses' array at what the write-backs leave, the rest as entered. -/
def W3 (c : Dev nD) : Valuation τ sig (Elt F) :=
  Function.update (W2 m ρ c) (Proc.devRef .tc main_v3) ((R1.dat1 (V2 m ρ) c).arrAt 4 cfg1.N)
abbrev V3 : (c : Dev nD) → (b : Ref sig .tc) → Buf (Elt F) ((c : Thread nD τ).loc b) := fun c b => W3 m ρ c b
theorem V3_main_v3 (c : Dev nD) : (R1.dat1 (V2 m ρ) c).arrAt 4 cfg1.N = V3 m ρ c main_v3 := by
  show _ = W3 m ρ c (Proc.devRef .tc main_v3)
  unfold W3; exact (Function.update_self (Proc.devRef (τ := τ) .tc main_v3) _ (W2 m ρ c)).symm
theorem V3_of_ne (c : Dev nD) (b : Ref sig .tc) (hb : b ≠ main_v3) : V3 m ρ c b = V2 m ρ c b := by
  show W3 m ρ c (Proc.devRef .tc b) = W2 m ρ c (Proc.devRef .tc b)
  unfold W3; exact Function.update_of_ne (StableHlo.devRef_ne_of_ne hb) _ _
/-- After the final mean. -/
abbrev W4 : Dev nD → Valuation τ sig (Elt F) := fun c => StableHlo.after hostOps2 (W3 m ρ c)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The normalisation region: entered from the launch contents, left with the normalised rows written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region: entered after the reshapes, left with the row losses written.  Its two windows on the normalised
    rows take half the array's share each at entry and give the halves back at exit; the accumulators enter the
    invariant at anything and leave it forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := R1.split1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin1 (V2 m ρ) c)
    unfold Pipeline.ΦA
    iintro ⟨Hp, -, Hr⟩
    isplitl [Hr]; · iexact Hr
    iexact Hp
  hout c := by
    rw [Pipeline.ownSems0_none]
    refine (R1.hout1 (V2 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := R1.join1 (V2 m ρ) c (V3 m ρ c) (V3_main_v3 m ρ c) (V3_of_ne m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := V3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := V3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := W1_of_ne m ρ c main_arg1 (by decide)
    _ = m ((c : Thread nD τ).loc main_arg1) := rfl

/-- The run read at the result and the two arguments. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v5 (by decide)),
    (h c _ (mem_uc main_arg0 (by decide))).trans (W4_main_arg0 m ρ c),
    (h c _ (mem_uc main_arg1 (by decide))).trans (W4_main_arg1 m ρ c)⟩) (run m ρ)

/-- The frame: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Run

end
-- ==== Proof.Region0Bits.lean ====
/-
  The row-normalisation region of the kernel program, at the buffer contents `V` it is entered with.

  The region walks the 8 row blocks of the feature array.  At block `t` the body reads the block
  (1024 rows of 512 columns), divides every entry by its row's guarded Euclidean norm, and writes the
  quotient, narrowed, over the whole of the result block.  This module states what each window's buffer
  holds before and after the body at a point, runs the body symbolically against that description,
  and packages the outcome as the pipeline's proof data and its body obligation.
-/
import proofs.«108453_j6356551598243_1_alg».proof.Proof.Gen.Kernel.Launch
import proofs.«108453_j6356551598243_1_alg».proof.Proof.Gen.Kernel.Skeleton
import proofs.«108453_j6356551598243_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have 1024 x 512 entries, and a membership proof recurses once per coordinate
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`: the 1024 rows `1024 t … 1024 t + 1023` of its array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point, for any proof data whose array is
    `V`'s and whose body leaves the block in place: the window is fetched whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: the whole 1024 x 512 block -/

abbrev r0_0 : Rect S1024x512 := Rect.unit (s := S1024x512) ![0, 0] S1024x512.size inb_S1024x512_S1024x512_0_0

/-! ## What the body leaves in the result window's buffer -/

/-- The result buffer after the body, from the feature block: the one store, of the normalised and
    narrowed block, over everything. -/
def out0_1 (x0 : Vec F S1024x512 .f32) : Vec F S1024x512 .bf16 :=
  View.canon [⟨r0_0, k0_pay1 (View.ld x0 r0_0)⟩]

/-- The one store covers the buffer. -/
theorem cover0_1 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The body on whole buffers, the feature buffer at `x0` and the result buffer at anything, runs to the
    continuation holding the feature buffer as it was and the result buffer at `out0_1 x0`. -/
theorem sound_kernel0 (c : Dev nD) (E : Set ℕ) (i : grid0.Coords) (arg1 : Memref sig .tc .vmem S1024x512 .f32) (harg1 : arg1.IsWhole) (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point
    `t` the feature buffer at its block and the result buffer at `out0_1` of that block; the invariant the
    scoped rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The feature window's current buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the feature buffer holds its block, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Region1RunsBits.lean ====
/-
  The second region (the loss kernel over an 8 × 8 grid of 1024 × 1024 tiles), its body run once per control
  case.  A point (i, k) handles row tile i against column tile k; three 1024 × 1 accumulators are carried from
  point to point: the row sums of exp s, of m · s and of m.  At k = 0 they are reset and then added to; at
  0 < k < 7 they are added to; at k = 7 they are added to and log(∑ exp s) − (∑ m·s)/(∑ m) is stored into the
  output block.  The two conditions are decided in closed form over the grid (the point number mod 8).
-/
import proofs.«108453_j6356551598243_1_alg».proof.Proof.Gen.Kernel.Launch
import proofs.«108453_j6356551598243_1_alg».proof.Proof.Gen.Kernel.Skeleton
import proofs.«108453_j6356551598243_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- "This is the first column tile" (the accumulators are reset), as the body computes it. -/
abbrev cond1_0 (i : grid1.Coords) : Prop := (Scalar.cmpi .ne (Scalar.extui (Scalar.cmpi .eq (BitVec.ofNat 32 (i 1).val) 0#32)) 0#32) = 1#1
/-- It holds at the points whose column tile is 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last column tile" (the row losses are stored), as the body computes it. -/
abbrev cond1_1 (i : grid1.Coords) : Prop := k1_cond2 i = 1#1
/-- It holds at the points whose column tile is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the row losses are not stored the output block is idle, -/
theorem idleAt1_4 : ∀ t : Fin cfg1.N, ¬cond1_1 (grid1.coords t) → cfg1.idle 4 (grid1.coords t) = true := by decide +kernel
/-- and is not written back there; -/
theorem noFlush1_4 : ∀ t : Fin cfg1.N, ¬cond1_1 (grid1.coords t) → (cfg1.win 4).flush t = false := by decide +kernel
/-- where they are stored it is live. -/
theorem liveAt1_4 : ∀ t : Fin cfg1.N, cond1_1 (grid1.coords t) → cfg1.idle 4 (grid1.coords t) = false := by decide +kernel

/-! ## The staging buffers and the accumulators as the body is handed them -/

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The three accumulators (row sums of exp s, of m·s, of m): whole scoped buffers of the kernel's own. -/
abbrev scM0 : Memref sig .tc .vmem S1024x1 .f32 := Memref.whole cc1_scratch0
abbrev scM1 : Memref sig .tc .vmem S1024x1 .f32 := Memref.whole cc1_scratch1
abbrev scM2 : Memref sig .tc .vmem S1024x1 .f32 := Memref.whole cc1_scratch2
/-- One buffer of each kind through which contents are stated (the choice does not matter). -/
abbrev VO4 : View sig .tc .vmem S1024x1 .f32 := (Memref.whole cc1_stg4_0 : Memref sig .tc .vmem S1024x1 .f32).view
abbrev VS0 : View sig .tc .vmem S1024x1 .f32 := scM0.view
abbrev VS1 : View sig .tc .vmem S1024x1 .f32 := scM1.view
abbrev VS2 : View sig .tc .vmem S1024x1 .f32 := scM2.view

/-! ## The body, case by case -/

set_option maxHeartbeats 4000000 in
/-- The body at a point of case A (the first column tile: the three accumulators are reset before they are added to): on whole staging
    buffers holding the four input blocks it runs to the end, leaves the inputs as they were and each accumulator with
    the pieces this run's stores wrote; the output block is not touched. The pieces are the body's stores, in program order. -/
noncomputable def bodyRunA (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) :
    { LS : List (View.Piece (Elt F) S1024x1 .f32) × List (View.Piece (Elt F) S1024x1 .f32) × List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨⟨?_, ?_, ?_⟩, fun xi4 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- The body at a point of case B (a middle column tile: the accumulators are added to): on whole staging
    buffers holding the four input blocks it runs to the end, leaves the inputs as they were and each accumulator with
    the pieces this run's stores wrote; the output block is not touched. The pieces are the body's stores, in program order. -/
noncomputable def bodyRunB (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    { LS : List (View.Piece (Elt F) S1024x1 .f32) × List (View.Piece (Elt F) S1024x1 .f32) × List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨⟨?_, ?_, ?_⟩, fun xi4 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- The body at a point of case C (the last column tile: the accumulators are added to and the row losses stored): on whole staging
    buffers holding the four input blocks it runs to the end, leaves the inputs as they were and each accumulator with
    the pieces this run's stores wrote; the output block holds the pieces of its one store. The pieces are the body's stores, in program order. -/
noncomputable def bodyRunC (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    Σ' (L4 : List (View.Piece (Elt F) S1024x1 .f32)), { LS : List (View.Piece (Elt F) S1024x1 .f32) × List (View.Piece (Elt F) S1024x1 .f32) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS.1) ∗ (∃ f, arg8.view.loc (c : Thread nD τ) ↦[arg8.view.set]{fullShare} arg8.view.writes (Elt F) f LS.2.1) ∗ (∃ f, arg9.view.loc (c : Thread nD τ) ↦[arg9.view.set]{fullShare} arg9.view.writes (Elt F) f LS.2.2)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9) K } := by
  refine ⟨?_, ⟨?_, ?_, ?_⟩, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.R1

end
-- ==== Proof.Region1Bits.lean ====
/-
  The second region's proof data and body obligation.  What the output block and the three accumulators hold
  after each point is defined by recursion on the point: the case the point is in (first, middle or last
  column tile), run on the point's four input blocks and — off the first column tile — on what the point
  before left in the accumulators.  Between points the accumulators are held at exactly those contents; the
  output block is written back only at the last column tile of each row tile and is idle elsewhere.  The two
  windows on the normalised rows (row tile i, column tile k) read one array, each at half the share.
-/
import proofs.«108453_j6356551598243_1_alg».proof.Proof.Gen.Kernel.Launch
import proofs.«108453_j6356551598243_1_alg».proof.Proof.Gen.Kernel.Skeleton
import proofs.«108453_j6356551598243_1_alg».proof.Proof.Gen.Kernel.Points
import proofs.«108453_j6356551598243_1_alg».proof.Proof.Region1RunsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- Case A's pieces for accumulator 0 cover it. -/
theorem scoverA_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.1, y ∈ pc.1.set :=
  View.cover_of_tiledL (bodyRunA c i arg2 harg2 arg3 harg3 arg4 harg4 arg5 harg5 arg6 harg6 arg7 harg7 arg8 harg8 arg9 harg9 hc0 hc1 x0 x1 x2 x3).1.1 S1024x1.size (by sl_kernel_rfl) y
/-- What case A leaves in accumulator 0: its pieces read back. -/
def soutA_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS0.read (Elt F) (VS0.writes (Elt F) VS0.junk (bodyRunA c i arg2 harg2 arg3 harg3 arg4 harg4 arg5 harg5 arg6 harg6 arg7 harg7 arg8 harg8 arg9 harg9 hc0 hc1 x0 x1 x2 x3).1.1)

/-- Case A's pieces for accumulator 1 cover it. -/
theorem scoverA_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.2.1, y ∈ pc.1.set :=
  View.cover_of_tiledL (bodyRunA c i arg2 harg2 arg3 harg3 arg4 harg4 arg5 harg5 arg6 harg6 arg7 harg7 arg8 harg8 arg9 harg9 hc0 hc1 x0 x1 x2 x3).1.2.1 S1024x1.size (by sl_kernel_rfl) y
/-- What case A leaves in accumulator 1: its pieces read back. -/
def soutA_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS1.read (Elt F) (VS1.writes (Elt F) VS1.junk (bodyRunA c i arg2 harg2 arg3 harg3 arg4 harg4 arg5 harg5 arg6 harg6 arg7 harg7 arg8 harg8 arg9 harg9 hc0 hc1 x0 x1 x2 x3).1.2.1)

/-- Case A's pieces for accumulator 2 cover it. -/
theorem scoverA_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) (y : S1024x1.Idx) :
    ∃ pc ∈ (bodyRunA c i arg2 harg2 arg3 harg3 arg4 harg4 arg5 harg5 arg6 harg6 arg7 harg7 arg8 harg8 arg9 harg9 hc0 hc1 x0 x1 x2 x3).1.2.2, y ∈ pc.1.set :=
  View.cover_of_tiledL (bodyRunA c i arg2 harg2 arg3 harg3 arg4 harg4 arg5 harg5 arg6 harg6 arg7 harg7 arg8 harg8 arg9 harg9 hc0 hc1 x0 x1 x2 x3).1.2.2 S1024x1.size (by sl_kernel_rfl) y
/-- What case A leaves in accumulator 2: its pieces read back. -/
def soutA_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) : Vec F S1024x1 .f32 :=
  VS2.read (Elt F) (VS2.writes (Elt F) VS2.junk (bodyRunA c i arg2 harg2 arg3 harg3 arg4 harg4 arg5 harg5 arg6 harg6 arg7 harg7 arg8 harg8 arg9 harg9 hc0 hc1 x0 x1 x2 x3).1.2.2)

/-- Case B's pieces for accumulator 0 cover it. -/
theorem scoverB_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.1, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.1 S1024x1.size (by sl_kernel_rfl) y
/-- What case B leaves in accumulator 0: its pieces read back. -/
def soutB_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS0.read (Elt F) (VS0.writes (Elt F) VS0.junk (bodyRunB c i arg2 harg2 arg3 harg3 arg4 harg4 arg5 harg5 arg6 harg6 arg7 harg7 arg8 harg8 arg9 harg9 hc0 hc1 x0 x1 x2 x3 xs0 xs1 xs2).1.1)

/-- Case B's pieces for accumulator 1 cover it. -/
theorem scoverB_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.2.1, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.2.1 S1024x1.size (by sl_kernel_rfl) y
/-- What case B leaves in accumulator 1: its pieces read back. -/
def soutB_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS1.read (Elt F) (VS1.writes (Elt F) VS1.junk (bodyRunB c i arg2 harg2 arg3 harg3 arg4 harg4 arg5 harg5 arg6 harg6 arg7 harg7 arg8 harg8 arg9 harg9 hc0 hc1 x0 x1 x2 x3 xs0 xs1 xs2).1.2.1)

/-- Case B's pieces for accumulator 2 cover it. -/
theorem scoverB_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunB c i arg2 harg2 arg3 harg3 arg4 harg4 arg5 harg5 arg6 harg6 arg7 harg7 arg8 harg8 arg9 harg9 hc0 hc1 x0 x1 x2 x3 xs0 xs1 xs2).1.2.2, y ∈ pc.1.set :=
  View.cover_of_tiledL (bodyRunB c i arg2 harg2 arg3 harg3 arg4 harg4 arg5 harg5 arg6 harg6 arg7 harg7 arg8 harg8 arg9 harg9 hc0 hc1 x0 x1 x2 x3 xs0 xs1 xs2).1.2.2 S1024x1.size (by sl_kernel_rfl) y
/-- What case B leaves in accumulator 2: its pieces read back. -/
def soutB_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS2.read (Elt F) (VS2.writes (Elt F) VS2.junk (bodyRunB c i arg2 harg2 arg3 harg3 arg4 harg4 arg5 harg5 arg6 harg6 arg7 harg7 arg8 harg8 arg9 harg9 hc0 hc1 x0 x1 x2 x3 xs0 xs1 xs2).1.2.2)

/-- Case C's pieces for accumulator 0 cover it. -/
theorem scoverC_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.1 S1024x1.size (by sl_kernel_rfl) y
/-- What case C leaves in accumulator 0: its pieces read back. -/
def soutC_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS0.read (Elt F) (VS0.writes (Elt F) VS0.junk (bodyRunC c i arg2 harg2 arg3 harg3 arg4 harg4 arg5 harg5 arg6 harg6 arg7 harg7 arg8 harg8 arg9 harg9 hc0 hc1 x0 x1 x2 x3 xs0 xs1 xs2).2.1.1)

/-- Case C's pieces for accumulator 1 cover it. -/
theorem scoverC_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.2.1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.2.1 S1024x1.size (by sl_kernel_rfl) y
/-- What case C leaves in accumulator 1: its pieces read back. -/
def soutC_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS1.read (Elt F) (VS1.writes (Elt F) VS1.junk (bodyRunC c i arg2 harg2 arg3 harg3 arg4 harg4 arg5 harg5 arg6 harg6 arg7 harg7 arg8 harg8 arg9 harg9 hc0 hc1 x0 x1 x2 x3 xs0 xs1 xs2).2.1.2.1)

/-- Case C's pieces for accumulator 2 cover it. -/
theorem scoverC_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).2.1.2.2, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).2.1.2.2 S1024x1.size (by sl_kernel_rfl) y
/-- What case C leaves in accumulator 2: its pieces read back. -/
def soutC_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VS2.read (Elt F) (VS2.writes (Elt F) VS2.junk (bodyRunC c i arg2 harg2 arg3 harg3 arg4 harg4 arg5 harg5 arg6 harg6 arg7 harg7 arg8 harg8 arg9 harg9 hc0 hc1 x0 x1 x2 x3 xs0 xs1 xs2).2.1.2.2)

/-- Case C's one store covers the output block. -/
theorem coverC_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) (y : S1024x1.Idx) :
    ∃ pc ∈ (bodyRunC c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (bodyRunC c i arg2 harg2 arg3 harg3 arg4 harg4 arg5 harg5 arg6 harg6 arg7 harg7 arg8 harg8 arg9 harg9 hc0 hc1 x0 x1 x2 x3 xs0 xs1 xs2).1 S1024x1.size (by sl_kernel_rfl) y
/-- What case C leaves in the output block: its piece read back. -/
def outC_4 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) : Vec F S1024x1 .f32 :=
  VO4.read (Elt F) (VO4.writes (Elt F) VO4.junk (bodyRunC c i arg2 harg2 arg3 harg3 arg4 harg4 arg5 harg5 arg6 harg6 arg7 harg7 arg8 harg8 arg9 harg9 hc0 hc1 x0 x1 x2 x3 xs0 xs1 xs2).1)

section AtV
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation, point by point -/

/-- What the output block and the three accumulators hold after the body at position `n`. -/
def outsAt1 (c : Dev nD) : (n : ℕ) → n < cfg1.N → Vec F S1024x1 .f32 × Vec F S1024x1 .f32 × Vec F S1024x1 .f32 × Vec F S1024x1 .f32
  | 0, hn => ((VO4.read (Elt F) (VO4.writes (Elt F) VO4.junk [])), soutA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), soutA_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM0 (Memref.isWhole_whole _) scM1 (Memref.isWhole_whole _) scM2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        ((VO4.read (Elt F) (VO4.writes (Elt F) VO4.junk [])), soutA_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), soutA_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (outC_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutC_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        ((VO4.read (Elt F) (VO4.writes (Elt F) VO4.junk [])), soutB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, soutB_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM0 (Memref.isWhole_whole _) scM1 (Memref.isWhole_whole _) scM2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = ((VO4.read (Elt F) (VO4.writes (Elt F) VO4.junk [])), soutA_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t), soutA_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t), soutA_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ((VO4.read (Elt F) (VO4.writes (Elt F) VO4.junk [])), soutB_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutB_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutB_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC_4 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_0 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_1 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, soutC_2 c (grid1.coords t) (ms1_0 t) (hs1_0 t) (ms1_1 t) (hs1_1 t) (ms1_2 t) (hs1_2 t) (ms1_3 t) (hs1_3 t) (ms1_4 t) (hs1_4 t) scM0 (Memref.isWhole_whole _) scM1 (Memref.isWhole_whole _) scM2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point every scoped buffer the region does not stage is at some contents; afterwards the three
    accumulators are at what the point before left, the rest as before. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c n hn).2.1) ∗ owns (c : Thread nD τ) scM1 fullShare ((outsAt1 V c n hn).2.2.1) ∗ owns (c : Thread nD τ) scM2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c n hn).2.1) ∗ owns (c : Thread nD τ) scM1 fullShare ((outsAt1 V c n hn).2.2.1) ∗ owns (c : Thread nD τ) scM2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM0 fullShare ((outsAt1 V c (n - 1) (by omega)).2.1) ∗ owns (c : Thread nD τ) scM1 fullShare ((outsAt1 V c (n - 1) (by omega)).2.2.1) ∗ owns (c : Thread nD τ) scM2 fullShare ((outsAt1 V c (n - 1) (by omega)).2.2.2)) ∗ (∃ r, prngReg c r)) := by
  cases n with
  | zero => exact absurd rfl hz
  | succ n => rfl

end AtV

/-- The scoped buffers the region does not stage, with the accumulators as owned buffers. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

section AtV2
variable (V : (c : Dev nD) → (b : Ref sig .tc) → Buf (Elt F) ((c : Thread nD τ).loc b))

/-! ## The proof data -/

/-- The second pipeline's proof data on core `c`: the arrays as the region finds them; after the body each input's
    buffer at its block and the output's at what the accumulation says; the invariant carrying the accumulators;
    the two windows on the normalised rows each at half the share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the closed forms say which case the point is in;
    the invariant hands the body the accumulators at what the point before left (at anything at the very first
    point) and takes them back at this point's contents; the output block is handed back untouched off the last
    column tile and holds the row losses at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold soutA_0 soutA_1 soutA_2; (try dsimp only)
      by_cases hz : t.val = 0
      ·
        rw [PhiS_castSucc V c t, PhiS_zero V c _ _ hz, PhiA1_eq]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _)
          unfold owns; iexists _; isplitr
          swap; · iexact HS2
          ipureintro; exact View.read_writes_of_cover _ _ _ _ _ (scoverA_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC_4 soutC_0 soutC_1 soutC_2; (try dsimp only)
      by_cases hz : t.val = 0
      · exfalso; omega
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunC c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 c _ _ _ _ _ _ _ _ _ _ _ _ _ _ _ _ _ _ _ _ _ _ _ _ _ _)
          unfold owns; iexists _; isplitr
          swap; · iexact HS2
          ipureintro; exact View.read_writes_of_cover _ _ _ _ _ (scoverC_2 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_4 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB_0 soutB_1 soutB_2; (try dsimp only)
      by_cases hz : t.val = 0
      · exfalso; omega
      ·
        rw [PhiS_castSucc V c t, PhiS_pos V c _ _ hz]
        iintro ⟨⟨⟨He1, He2, He3, He4, HS0, HS1, HS2⟩, Hg⟩, Ho, ⟨%d0, H0⟩, ⟨%d1, H1⟩, ⟨%d2, H2⟩, ⟨%d3, H3⟩, ⟨%d4, H4⟩⟩
        iapply ((bodyRunB c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [He1 He2 He3 He4 HS0 HS1 HS2 Hg]
        · isplitr [Hg]
          swap; · iexact Hg
          isplitl [He1]; · iexact He1
          isplitl [He2]; · iexact He2
          isplitl [He3]; · iexact He3
          isplitl [He4]; · iexact He4
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 c _ _ _ _ _ _ _ _ _ _ _ _ _ _ _ _ _ _ _ _ _ _ _ _ _ _)
          unfold owns; iexists _; isplitr
          swap; · iexact HS2
          ipureintro; exact View.read_writes_of_cover _ _ _ _ _ (scoverB_2 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨He1, He2, He3, He4, HS0, HS1, HS2⟩, Hg⟩
  isplitr [Hg]
  swap; · iexact Hg
  isplitl [He1]; · iexact He1
  isplitl [He2]; · iexact He2
  isplitl [He3]; · iexact He3
  isplitl [He4]; · iexact He4
  isplitl [HS0]; · iexists _; iexact HS0
  isplitl [HS1]; · iexists _; iexact HS1
  iexists _; iexact HS2

end AtV2

end Cert.Kernel.R1

end
-- ==== Proof.Region1ArraysBits.lean ====
/-
  The second region's arrays among the core's unscoped buffers.

  The region's five windows sit on four arrays: the two windows on the normalised rows read ONE
  array, each holding half of its share; the two label windows and the output window hold their
  arrays whole.  Entering the region, the core's unscoped buffers split into the windows' arrays
  (the shared one cut in two halves of its share) and the rest; leaving it, the halves are put
  back together and the buffers are whole again, the output array at what the write-backs left.
-/
import proofs.«108453_j6356551598243_1_alg».proof.Proof.Region1Bits

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the five windows' arrays are four. -/
theorem arr_image : Finset.univ.image (Pipeline.arrRef spec1) = ([main_v0, main_v1, main_v2, main_v3] : List (Ref sig .tc)).toFinset := by
  decide

/-- A core's unscoped buffers are the four buffers behind the windows' arrays and the rest. -/
theorem bufs_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (Ix := Unit) (Name := ℕ) (U := UR sig nD τ) (Lvl := ℕ) cfgs 1 winFacts₀1.arr_unscoped c W

/-- The four buffers one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs
  exact bigSep_eq_bigSepL_of_eq [main_v0, main_v1, main_v2, main_v3] arr_image (by decide) _

variable (V : (c : Dev nD) → (b : Ref sig .tc) → Buf (Elt F) ((c : Thread nD τ).loc b))

/-- The five windows' arrays one by one: the shared array's two halves, then the three whole ones. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)
          ∗ (((c : Thread nD τ).loc main_v3) ↦{fullShare} G 4)) := by
  unfold Dat.arrays
  rw [bigSep_W1]
  -- windows 0 and 1 are on one array: the first equation rewrites both
  rw [(arr_whole1 0).set_eq_univ, (arr_whole1 2).set_eq_univ, (arr_whole1 3).set_eq_univ, (arr_whole1 4).set_eq_univ]
  rfl

/-- ENTRY: a core's unscoped buffers at `V c` are the region's arrays at their entry contents — the array of
    normalised rows cut into the two halves of its share — and the unscoped rest. -/
theorem split1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [bufs_split1 c (V c)]
  refine sep_mono ?_ .rfl
  rw [arrBufs1_eq, arrays1_eq]
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-- EXIT: the region's arrays after the last write-back — the two halves put back together — and the unscoped
    rest at `V c` are the core's unscoped buffers at any contents `V'` that has the output array at what the
    write-backs left and agrees with `V c` elsewhere. -/
theorem join1 (c : Dev nD) (V' : (b : Ref sig .tc) → Buf (Elt F) ((c : Thread nD τ).loc b))
    (h4 : (dat1 V c).arrAt 4 cfg1.N = V' main_v3) (hrest : ∀ b : Ref sig .tc, b ≠ main_v3 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [bufs_split1 c V']
  have hR : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    rw [hrest b (fun e => (Finset.mem_sdiff.mp hb).2 (by rw [e, arr_image]; decide))]
  rw [hR]
  refine sep_mono ?_ .rfl
  rw [arrBufs1_eq, arrays1_eq]
  rw [(dat1 V c).arrAt_in 0 rfl cfg1.N, (dat1 V c).arrAt_in 1 rfl cfg1.N, (dat1 V c).arrAt_in 2 rfl cfg1.N,
    (dat1 V c).arrAt_in 3 rfl cfg1.N, h4, A_eq1, A_eq1, A_eq1, A_eq1,
    hrest main_v0 (by decide), hrest main_v1 (by decide), hrest main_v2 (by decide)]
  iintro ⟨H0l, H0r, H1, H2, H3⟩
  ihave H0 := (pointsTo_share (PosShare.mem_left_op_right fullShare)).2 $$ [H0l H0r]
  · isplitl [H0l] <;> iassumption
  isplitl [H0]; · iexact H0
  isplitl [H1]; · iexact H1
  isplitl [H2]; · iexact H2
  iexact H3

end Cert.Kernel.R1

end
-- ==== Proof.RunBits.lean ====
/-
  The kernel program as a run: the normalisation region, the two label reshapes, the loss region, the final mean —
  four segments in order, each entered from what the one before left.  The unscoped buffers' contents at the five
  boundaries are a fold from the launch memory: a region changes only its output array (the normalised rows; the
  row losses), to what its write-backs leave; a stretch of host operations writes its own results.  Every weakly
  fair execution terminates and ends with every unscoped buffer at the last boundary's contents.
-/
import proofs.«108453_j6356551598243_1_alg».proof.Proof.Region0Bits
import proofs.«108453_j6356551598243_1_alg».proof.Proof.Region1Bits
import proofs.«108453_j6356551598243_1_alg».proof.Proof.Region1ArraysBits
import proofs.«108453_j6356551598243_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the normalisation region: its output array at what the write-backs leave, the rest as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the label reshapes. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the loss region: the row losses' array at what the write-backs leave, the rest as entered. -/
def W3 (c : Dev nD) : Valuation τ sig (Elt F) :=
  Function.update (W2 m ρ c) (Proc.devRef .tc main_v3) ((R1.dat1 (V2 m ρ) c).arrAt 4 cfg1.N)
abbrev V3 : (c : Dev nD) → (b : Ref sig .tc) → Buf (Elt F) ((c : Thread nD τ).loc b) := fun c b => W3 m ρ c b
theorem V3_main_v3 (c : Dev nD) : (R1.dat1 (V2 m ρ) c).arrAt 4 cfg1.N = V3 m ρ c main_v3 := by
  show _ = W3 m ρ c (Proc.devRef .tc main_v3)
  unfold W3; exact (Function.update_self (Proc.devRef (τ := τ) .tc main_v3) _ (W2 m ρ c)).symm
theorem V3_of_ne (c : Dev nD) (b : Ref sig .tc) (hb : b ≠ main_v3) : V3 m ρ c b = V2 m ρ c b := by
  show W3 m ρ c (Proc.devRef .tc b) = W2 m ρ c (Proc.devRef .tc b)
  unfold W3; exact Function.update_of_ne (StableHlo.devRef_ne_of_ne hb) _ _
/-- After the final mean. -/
abbrev W4 : Dev nD → Valuation τ sig (Elt F) := fun c => StableHlo.after hostOps2 (W3 m ρ c)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the random-number register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The normalisation region: entered from the launch contents, left with the normalised rows written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region: entered after the reshapes, left with the row losses written.  Its two windows on the normalised
    rows take half the array's share each at entry and give the halves back at exit; the accumulators enter the
    invariant at anything and leave it forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := R1.split1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin1 (V2 m ρ) c)
    unfold Pipeline.ΦA
    iintro ⟨Hp, -, Hr⟩
    isplitl [Hr]; · iexact Hr
    iexact Hp
  hout c := by
    rw [Pipeline.ownSems0_none]
    refine (R1.hout1 (V2 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := R1.join1 (V2 m ρ) c (V3 m ρ c) (V3_main_v3 m ρ c) (V3_of_ne m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide : main_arg0 ∉ hostOps2_W)
    _ = W2 m ρ c (Proc.devRef .tc main_arg0) := V3_of_ne m ρ c main_arg0 (by decide)
    _ = W1 m ρ c (Proc.devRef .tc main_arg0) := StableHlo.after_of_writes_sub hostOps1 _ hostOps1_writes (by decide : main_arg0 ∉ hostOps1_W)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide : main_arg1 ∉ hostOps2_W)
    _ = W2 m ρ c (Proc.devRef .tc main_arg1) := V3_of_ne m ρ c main_arg1 (by decide)
    _ = W1 m ρ c (Proc.devRef .tc main_arg1) := StableHlo.after_of_writes_sub hostOps1 _ hostOps1_writes (by decide : main_arg1 ∉ hostOps1_W)
    _ = W0 m ρ c (Proc.devRef .tc main_arg1) := W1_of_ne m ρ c main_arg1 (by decide)
    _ = m ((c : Thread nD τ).loc main_arg1) := rfl

/-- The run read at the result and the two arguments. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v5 (by decide)),
    (h c _ (mem_uc main_arg0 (by decide))).trans (W4_main_arg0 m ρ c),
    (h c _ (mem_uc main_arg1 (by decide))).trans (W4_main_arg1 m ρ c)⟩) (run m ρ)

/-- The frame: the program runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Run

end
-- ==== Proof.Spec.lean ====
/-
  The supervised-contrastive loss as one function of the argument arrays, on the extended reals.

  Rows are L2-normalised with the guard `max (√(∑ x²)) ε`; the similarity of rows `r` and `c` is the
  inner product of the normalised rows, scaled by the inverse temperature; the loss of row `r` is
  the mean, over the columns carrying the same label, of `-log (exp s / ∑ exp s)`; the result is
  the mean over all rows.  Two spellings are stated: the one that accumulates
  `log (∑ exp s) - (∑ m·s) / (∑ m)` with the similarity a PRODUCT with the inverse temperature,
  and the one that forms `log (exp s / ∑ exp s)` entry by entry with the similarity a QUOTIENT by
  the temperature.
-/
import Idealize.ShloMosaic.PureOps.Ideal

noncomputable section

namespace Cert.SupCon

open Idealize.ShloMosaic

/-- The guard under the norm (the binary32 word of 1e-12). -/
def eps : EReal := Ideal.ofBits .f32 0x2B8CBCCC#32
/-- The temperature the quotient spelling divides by (the binary32 word of 0.07: 9395241 / 2^27). -/
def temp : EReal := Ideal.ofBits .f32 0x3D8F5C29#32
/-- The inverse temperature the product spelling multiplies by: the reciprocal of that word's value. -/
def invTemp : EReal := ((134217728 / 9395241 : ℝ) : EReal)
/-- The number of rows, as the divisor of the final mean (the binary32 word of 8192). -/
def rows : EReal := Ideal.ofBits .f32 0x46000000#32

variable (x : Fin 8192 → Fin 512 → EReal) (l : Fin 8192 → BitVec 32)

/-- The guarded Euclidean norm of row `r`. -/
def nrm (r : Fin 8192) : EReal := max (Ideal.sqrt (∑ d : Fin 512, x r d * x r d)) eps
/-- The normalised rows. -/
def unit (r : Fin 8192) (d : Fin 512) : EReal := Ideal.div (x r d) (nrm x r)
/-- The inner product of normalised rows `r` and `c`. -/
def dot (r c : Fin 8192) : EReal := ∑ d : Fin 512, unit x r d * unit x c d
/-- The similarity, product spelling. -/
def simP (r c : Fin 8192) : EReal := dot x r c * invTemp
/-- The similarity, quotient spelling. -/
def simQ (r c : Fin 8192) : EReal := Ideal.div (dot x r c) temp
/-- The positive-pair mask: one where the labels agree (the diagonal included), zero elsewhere. -/
def msk (r c : Fin 8192) : EReal := if l r = l c then 1 else 0

/-- Row `r`'s loss, accumulated: `log (∑ exp s) - (∑ m·s) / (∑ m)`. -/
def rowP (r : Fin 8192) : EReal :=
  Ideal.log (∑ c : Fin 8192, Ideal.exp (simP x r c))
    - Ideal.div (∑ c : Fin 8192, msk l r c * simP x r c) (∑ c : Fin 8192, msk l r c)
/-- Row `r`'s loss, entry by entry: `(-(∑ m · log (exp s / ∑ exp s))) / (∑ m)`. -/
def rowQ (r : Fin 8192) : EReal :=
  Ideal.div (-(∑ c : Fin 8192, msk l r c
      * Ideal.log (Ideal.div (Ideal.exp (simQ x r c)) (∑ c' : Fin 8192, Ideal.exp (simQ x r c')))))
    (∑ c : Fin 8192, msk l r c)

/-- The mean over the rows, product spelling. -/
def lossP : EReal := Ideal.div (∑ r : Fin 8192, rowP x l r) rows
/-- The mean over the rows, quotient spelling. -/
def lossQ : EReal := Ideal.div (∑ r : Fin 8192, rowQ x l r) rows

end Cert.SupCon

end
-- ==== Proof.Region0Value.lean ====
/-
  What the row-normalisation region leaves in its result array, on the extended reals.

  At block `t` the body's one store writes, at row `p` and column `q` of the block, the feature entry
  divided by `max (√(∑ₖ x²)) ε`, the sum running over the 512 columns of that row; narrowing the
  quotient to the result's format changes nothing on the extended reals.  Row `p` of block `t` is
  row `1024 t + p` of the array, the eight blocks tile the array, so after the last write-back
  entry `(r, d)` of the result array is the specification's normalised entry `unit x r d`.
-/
import proofs.«108453_j6356551598243_1_alg».proof.Proof.Region0
import proofs.«108453_j6356551598243_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's payload at an index -/

/-- The sum of a 1024 x 512 block over its columns, read at row `p`: the sum over the 512 entries of that row. -/
theorem rowSum_apply (v : FVec Ideal S1024x512 .f32) (h : S1024x512.Reduces [1] S1024) (hφ : FKind.Formats .f32)
    (hacc : (0x00000000#32 : BitVec 32) = 0x00000000#32) (p : Fin 1024) :
    multiReduction .add [1] S1024 v 0x00000000#32 h hφ hacc (ix1 p) = ∑ k : Fin 512, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The stored block at `(p, q)`: the entry divided by its row's guarded Euclidean norm. -/
theorem pay_apply (x0 : Vec Ideal S1024x512 .f32) (p : Fin 1024) (q : Fin 512) :
    k0_pay1 x0 (ix2 p q)
      = Ideal.div (x0 (ix2 p q)) (max (Ideal.sqrt (∑ k : Fin 512, x0 (ix2 p k) * x0 (ix2 p k))) Cert.SupCon.eps) := by
  unfold k0_pay1
  rw [truncf_apply, divf_apply]
  -- the norm column [1024, 1] spread over the 512 columns: read at column 0 of row `p`
  rw [broadcastTo_apply (s := S1024x1) (t := S1024x512) _ _ (ix2 p q) (ix2 p (0 : Fin 1)) (fun a => by
    match a with
    | ⟨0, _⟩ => rfl
    | ⟨1, _⟩ => rfl)]
  rw [maximumf_apply]
  show Ideal.div _ (max (Ideal.sqrt (shapeCast S1024x1 _ shapeCasts_S1024_S1024x1 (ix2 p (0 : Fin 1)))) Cert.SupCon.eps) = _
  -- the row sums [1024] as a column [1024, 1]: same row-major position
  rw [shapeCast_apply (s := S1024) (t := S1024x1) _ _ (ix2 p (0 : Fin 1)) (ix1 p) (by
    rw [Shape.rowMajor_val_one, Shape.rowMajor_val_two]; show p.val = p.val * 1 + 0; omega)]
  rw [rowSum_apply]
  simp only [mulf_apply]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The normalised rows as one array: entry `(r, d)` is the specification's `unit` of the feature array. -/
def normalised (X : S8192x512.Idx → EReal) : S8192x512.Idx → EReal :=
  fun i => Cert.SupCon.unit (fun r d => X (ix2 r d)) (i 0) (i 1)

/-- The index maps over the grid: block `t` of either window is row block `t`, column block 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `x` of the feature window's block at point `t` is the array's entry at row `1024 t + x₀`, column `x₁`. -/
theorem iblk_apply (c : Dev nD) (t : Fin cfg0.N) (x : S1024x512.Idx) (i : S8192x512.Idx)
    (h0 : (i 0).val = t.val * 1024 + (x 0).val) (h1 : (i 1).val = (x 1).val) :
    (iblk0 V c 0 t : Vec Ideal S1024x512 .f32) x = (V c main_arg0 : S8192x512.Idx → EReal) i := by
  obtain ⟨e0, e1, -, -⟩ := block_index t
  unfold iblk0
  rw [View.read_apply]
  show V c main_arg0 _ = V c main_arg0 _
  congr 1
  funext a
  apply Fin.ext
  match a with
  | ⟨0, _⟩ => show win0_0.index t (0 : Fin 2) * 1024 + 1 * (x 0).val = (i 0).val; rw [e0, h0]; omega
  | ⟨1, _⟩ => show win0_0.index t (1 : Fin 2) * 512 + 1 * (x 1).val = (i 1).val; rw [e1, h1]; omega

/-- What point `t` writes back is block `t` of the normalised array. -/
theorem flushed_eq (c : Dev nD) (t : Fin cfg0.N) :
    (dat0 (F := Ideal) V c).flushed 1 t
      = ((cfg0.win 1).blk t).view.read (Elt Ideal) (normalised (V c main_arg0)) := by
  show (cfg0.win 1).cut (grid0.coords t) ((dat0 V c).after 1 t) = _
  rw [after0_1]
  unfold out0_1
  rw [View.canon_unit_zero zero_offsets]
  simp only [View.ld_unit_zero (S := S1024x512) zero_offsets]
  obtain ⟨-, -, e2, e3⟩ := block_index t
  have hN : cfg0.N = 8 := N_0
  funext j
  obtain ⟨p, q, rfl⟩ : ∃ (p : Fin 1024) (q : Fin 512), j = ix2 p q := ⟨j 0, j 1, eq_ix2 j⟩
  have hR : t.val * 1024 + p.val < 8192 := by have := t.isLt; have := p.isLt; omega
  show k0_pay1 (iblk0 V c 0 t) (ix2 p q) = normalised (V c main_arg0) (((cfg0.win 1).blk t).view.emb (ix2 p q))
  have hE : ((cfg0.win 1).blk t).view.emb (ix2 p q) = (ix2 (⟨t.val * 1024 + p.val, hR⟩ : Fin 8192) q : S8192x512.Idx) := by
    funext a
    apply Fin.ext
    match a with
    | ⟨0, _⟩ => show win0_1.index t (0 : Fin 2) * 1024 + 1 * p.val = t.val * 1024 + p.val; rw [e2]; omega
    | ⟨1, _⟩ => show win0_1.index t (1 : Fin 2) * 512 + 1 * q.val = q.val; rw [e3]; omega
  have hB : ∀ k : Fin 512, (iblk0 V c 0 t : Vec Ideal S1024x512 .f32) (ix2 p k)
      = (V c main_arg0 : S8192x512.Idx → EReal) (ix2 (⟨t.val * 1024 + p.val, hR⟩ : Fin 8192) k) :=
    fun k => iblk_apply V c t (ix2 p k) (ix2 (⟨t.val * 1024 + p.val, hR⟩ : Fin 8192) k) rfl rfl
  rw [pay_apply, hE]
  simp only [hB]
  rfl

/-- An index of the array is in point `t`'s block iff each coordinate is in the block's range on its axis. -/
theorem mem_blk (t : Fin cfg0.N) (i : S8192x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v0).slice (win0_1.rect t)).set ↔ _
  rw [View.set_slice_whole, Rect.mem_set_unit]
  exact Iff.rfl

/-- Every entry of the array is in some point's block: row `r` is in block `r / 1024`. -/
theorem covered (i : S8192x512.Idx) :
    ∃ t : Fin cfg0.N, (cfg0.win 1).flush t = true ∧ i ∈ ((cfg0.win 1).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, e2, e3⟩ := block_index t
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 512 ≤ (i 1).val ∧ (i 1).val < win0_1.index t (1 : Fin 2) * 512 + 512; rw [e3]; omega

/-- The result array after the last write-back is the normalised array. -/
theorem final_arr (c : Dev nD) : (dat0 (F := Ideal) V c).arrAt 1 cfg0.N = normalised (V c main_arg0) :=
  (dat0 (F := Ideal) V c).arrAt_eq_of_cover 1 (normalised (V c main_arg0)) (fun t _ => flushed_eq V c t) covered

/-- Entry `(r, d)` of the array the region leaves is the specification's normalised entry. -/
theorem final_v0 (c : Dev nD) (r : Fin 8192) (d : Fin 512) :
    (dat0 (F := Ideal) V c).arrAt 1 cfg0.N (ix2 r d)
      = Cert.SupCon.unit (fun r d => V c main_arg0 (ix2 r d)) r d := by
  rw [final_arr]
  rfl

end Cert.KernelIdeal.R0

end
-- ==== Proof.Region1Pieces.lean ====
/-
  What the body's stores leave, case by case, through the body's own arithmetic: each accumulator is stored whole
  after it is loaded, so what a run leaves in it is the one payload of that store — the accumulator as found plus this
  tile's row sums; on the first column tile the accumulator found is the zero block the reset just stored; on the last
  one the output block is log(∑ exp s) − (∑ m·s)/(∑ m) of the three accumulators as just stored.
-/
import proofs.«108453_j6356551598243_1_alg».proof.Proof.Region1
import Idealize.ShloMosaic.Lib.Pipeline.Value
set_option maxRecDepth 16384
noncomputable section
namespace Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]

/-- The whole-buffer rectangle starts at the origin. -/
theorem hz : (![0, 0] : Fin 2 → Nat) = fun _ => 0 := funext fun a => by fin_cases a <;> rfl

theorem soutB_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutB_0 c i arg2 harg2 arg3 harg3 arg4 harg4 arg5 harg5 arg6 harg6 arg7 harg7 arg8 harg8 arg9 harg9 hc0 hc1 x0 x1 x2 x3 xs0 xs1 xs2 = k1_pay8 x0 x1 xs0 := by
  unfold soutB_0
  rw [View.read_writes_eq_canon _ _ _ (scoverB_0 c i arg2 harg2 arg3 harg3 arg4 harg4 arg5 harg5 arg6 harg6 arg7 harg7 arg8 harg8 arg9 harg9 hc0 hc1 x0 x1 x2 x3 xs0 xs1 xs2)]
  unfold bodyRunB
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutB_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutB_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 x3 xs1) := by
  unfold soutB_1
  rw [View.read_writes_eq_canon _ _ _ (scoverB_1 c i arg2 harg2 arg3 harg3 arg4 harg4 arg5 harg5 arg6 harg6 arg7 harg7 arg8 harg8 arg9 harg9 hc0 hc1 x0 x1 x2 x3 xs0 xs1 xs2)]
  unfold bodyRunB
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutB_2_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutB_2 c i arg2 harg2 arg3 harg3 arg4 harg4 arg5 harg5 arg6 harg6 arg7 harg7 arg8 harg8 arg9 harg9 hc0 hc1 x0 x1 x2 x3 xs0 xs1 xs2 = k1_pay2 (k1_pay9 x2 x3) xs2 := by
  unfold soutB_2
  rw [View.read_writes_eq_canon _ _ _ (scoverB_2 c i arg2 harg2 arg3 harg3 arg4 harg4 arg5 harg5 arg6 harg6 arg7 harg7 arg8 harg8 arg9 harg9 hc0 hc1 x0 x1 x2 x3 xs0 xs1 xs2)]
  unfold bodyRunB
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutC_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutC_0 c i arg2 harg2 arg3 harg3 arg4 harg4 arg5 harg5 arg6 harg6 arg7 harg7 arg8 harg8 arg9 harg9 hc0 hc1 x0 x1 x2 x3 xs0 xs1 xs2 = k1_pay8 x0 x1 xs0 := by
  unfold soutC_0
  rw [View.read_writes_eq_canon _ _ _ (scoverC_0 c i arg2 harg2 arg3 harg3 arg4 harg4 arg5 harg5 arg6 harg6 arg7 harg7 arg8 harg8 arg9 harg9 hc0 hc1 x0 x1 x2 x3 xs0 xs1 xs2)]
  unfold bodyRunC
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutC_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutC_1 c i arg2 harg2 arg3 harg3 arg4 harg4 arg5 harg5 arg6 harg6 arg7 harg7 arg8 harg8 arg9 harg9 hc0 hc1 x0 x1 x2 x3 xs0 xs1 xs2 = k1_pay1 (k1_pay10 x0 x1 x2 x3 xs1) := by
  unfold soutC_1
  rw [View.read_writes_eq_canon _ _ _ (scoverC_1 c i arg2 harg2 arg3 harg3 arg4 harg4 arg5 harg5 arg6 harg6 arg7 harg7 arg8 harg8 arg9 harg9 hc0 hc1 x0 x1 x2 x3 xs0 xs1 xs2)]
  unfold bodyRunC
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutC_2_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    soutC_2 c i arg2 harg2 arg3 harg3 arg4 harg4 arg5 harg5 arg6 harg6 arg7 harg7 arg8 harg8 arg9 harg9 hc0 hc1 x0 x1 x2 x3 xs0 xs1 xs2 = k1_pay2 (k1_pay9 x2 x3) xs2 := by
  unfold soutC_2
  rw [View.read_writes_eq_canon _ _ _ (scoverC_2 c i arg2 harg2 arg3 harg3 arg4 harg4 arg5 harg5 arg6 harg6 arg7 harg7 arg8 harg8 arg9 harg9 hc0 hc1 x0 x1 x2 x3 xs0 xs1 xs2)]
  unfold bodyRunC
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem outC_4_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x512 .bf16) (x1 : Vec F S1024x512 .bf16) (x2 : Vec F S1024x1 .i32) (x3 : Vec F S1x1024 .i32) (xs0 : Vec F S1024x1 .f32) (xs1 : Vec F S1024x1 .f32) (xs2 : Vec F S1024x1 .f32) :
    outC_4 c i arg2 harg2 arg3 harg3 arg4 harg4 arg5 harg5 arg6 harg6 arg7 harg7 arg8 harg8 arg9 harg9 hc0 hc1 x0 x1 x2 x3 xs0 xs1 xs2 = k1_pay3 (k1_pay8 x0 x1 xs0) (k1_pay1 (k1_pay10 x0 x1 x2 x3 xs1)) (k1_pay2 (k1_pay9 x2 x3) xs2) := by
  unfold outC_4
  rw [View.read_writes_eq_canon _ _ _ (coverC_4 c i arg2 harg2 arg3 harg3 arg4 harg4 arg5 harg5 arg6 harg6 arg7 harg7 arg8 harg8 arg9 harg9 hc0 hc1 x0 x1 x2 x3 xs0 xs1 xs2)]
  unfold bodyRunC
  dsimp only
  sl_unfold_words
  rw [View.canon_unit_zero hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutA_0_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) :
    soutA_0 c i arg2 harg2 arg3 harg3 arg4 harg4 arg5 harg5 arg6 harg6 arg7 harg7 arg8 harg8 arg9 harg9 hc0 hc1 x0 x1 x2 x3 = k1_pay8 x0 x1 (k1_pay4 (F := F)) := by
  unfold soutA_0
  rw [View.read_writes_eq_canon _ _ _ (scoverA_0 c i arg2 harg2 arg3 harg3 arg4 harg4 arg5 harg5 arg6 harg6 arg7 harg7 arg8 harg8 arg9 harg9 hc0 hc1 x0 x1 x2 x3)]
  unfold bodyRunA
  dsimp only
  sl_unfold_words
  rw [View.canon_cons_unit_zero (S := S1024x1) hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutA_1_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) :
    soutA_1 c i arg2 harg2 arg3 harg3 arg4 harg4 arg5 harg5 arg6 harg6 arg7 harg7 arg8 harg8 arg9 harg9 hc0 hc1 x0 x1 x2 x3 = k1_pay1 (k1_pay10 x0 x1 x2 x3 (k1_pay5 (F := F))) := by
  unfold soutA_1
  rw [View.read_writes_eq_canon _ _ _ (scoverA_1 c i arg2 harg2 arg3 harg3 arg4 harg4 arg5 harg5 arg6 harg6 arg7 harg7 arg8 harg8 arg9 harg9 hc0 hc1 x0 x1 x2 x3)]
  unfold bodyRunA
  dsimp only
  sl_unfold_words
  rw [View.canon_cons_unit_zero (S := S1024x1) hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

theorem soutA_2_eq (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x512 .bf16) (x1 : Vec F S1024x512 .bf16) (x2 : Vec F S1024x1 .i32) (x3 : Vec F S1x1024 .i32) :
    soutA_2 c i arg2 harg2 arg3 harg3 arg4 harg4 arg5 harg5 arg6 harg6 arg7 harg7 arg8 harg8 arg9 harg9 hc0 hc1 x0 x1 x2 x3 = k1_pay2 (k1_pay9 x2 x3) (k1_pay6 (F := F)) := by
  unfold soutA_2
  rw [View.read_writes_eq_canon _ _ _ (scoverA_2 c i arg2 harg2 arg3 harg3 arg4 harg4 arg5 harg5 arg6 harg6 arg7 harg7 arg8 harg8 arg9 harg9 hc0 hc1 x0 x1 x2 x3)]
  unfold bodyRunA
  dsimp only
  sl_unfold_words
  rw [View.canon_cons_unit_zero (S := S1024x1) hz]
  repeat rw [View.readCov_unit_zero (S := S1024x1) _ hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x1024) hz]

end Cert.KernelIdeal.R1

end
-- ==== Proof.Region1Payloads.lean ====
/-
  The values the second kernel's body stores, read at an index as plain arithmetic on the extended
  reals.

  One step of the loop over column tiles forms, from a block of 1024 rows `x0` and a block of 1024
  rows `x1` of the normalised features, the similarity tile `s p q = (∑ d, x0 p d · x1 q d) · κ` with
  `κ` the inverse temperature, and the mask tile `m p q = [label p = label q]`; it adds to three
  running columns the row sums `∑ q, exp (s p q)`, `∑ q, m p q · s p q` and `∑ q, m p q`.  The
  finishing step turns the three columns into `log a - b / c`.  Each statement below names the
  coordinates `(p, q)` of an index explicitly; the unit coordinate of a column is a free variable
  `i0 : Fin 1`.
-/
import proofs.«108453_j6356551598243_1_alg».proof.Proof.Gen.KernelIdeal.Skeleton
import proofs.«108453_j6356551598243_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.R1pay

open Cert.KernelIdeal Cert.KernelIdeal.Gen Idealize.ShloMosaic Idealize.ShloMosaic.ValueIdx

/-! ### The similarity tile -/

/-- The named inverse temperature denotes the value the specification multiplies by. -/
theorem inv_temperature_eq :
    Named.named (F := Ideal) Cert.KernelIdeal.κ "inv_temperature" (φ := .f32) 0x41649249#32
      = Cert.SupCon.invTemp :=
  IdealRules.named_const.ideal_named_scalar _ _ _ _ rfl

/-- The left operand of the tile's product is read at the output row … -/
theorem lhs_row (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … and the contracted coordinate; -/
theorem lhs_contr (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k
/-- the right operand at the contracted coordinate … -/
theorem rhs_contr (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k
/-- … and the output column. -/
theorem rhs_col (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The similarity tile at `(p, q)`: the inner product of row `p` of the first block with row `q`
    of the second, times the inverse temperature. -/
theorem pay7_apply (x0 x1 : Vec Ideal S1024x512 .bf16) (p q : Fin 1024) :
    k1_pay7 (F := Ideal) x0 x1 (ix2 p q)
      = (∑ d : Fin 512, x0 (ix2 p d) * x1 (ix2 q d)) * Cert.SupCon.invTemp := by
  unfold k1_pay7
  rw [shapeCast_self, shapeCast_self]
  refine (mulf_apply _ _ _).trans ?_
  rw [broadcast_apply, inv_temperature_eq]
  refine congrArg (· * Cert.SupCon.invTemp) ?_
  refine (Ideal.matmul_constant_zero_apply dot_S1024x512_S512x1024_S1024x1024_1_0_0_1_n_n none x0 _ (ix2 p q)).trans ?_
  rw [← Equiv.sum_comp (contrEquiv1 dot_S1024x512_S512x1024_S1024x1024_1_0_0_1_n_n 512 rfl rfl).symm]
  refine Finset.sum_congr rfl fun d _ => ?_
  have hk := contrEquiv1_symm_val dot_S1024x512_S512x1024_S1024x1024_1_0_0_1_n_n 512 rfl rfl d
  have el : dot_S1024x512_S512x1024_S1024x1024_1_0_0_1_n_n.lhsIdx (ix2 p q) ((contrEquiv1 dot_S1024x512_S512x1024_S1024x1024_1_0_0_1_n_n 512 rfl rfl).symm d) = ix2 p d :=
    funext fun a => Fin.ext (by
      match a with
      | ⟨0, _⟩ => exact lhs_row _ _
      | ⟨1, _⟩ => exact (lhs_contr _ _).trans hk)
  have er : dot_S1024x512_S512x1024_S1024x1024_1_0_0_1_n_n.rhsIdx (ix2 p q) ((contrEquiv1 dot_S1024x512_S512x1024_S1024x1024_1_0_0_1_n_n 512 rfl rfl).symm d) = ix2 d q :=
    funext fun a => Fin.ext (by
      match a with
      | ⟨0, _⟩ => exact (rhs_contr _ _).trans hk
      | ⟨1, _⟩ => exact rhs_col _ _)
  rw [el, er, transpose_ix2_apply]

/-! ### Layout operations at an index: the column forms -/

/-- An `[a]` array cast to `[a, 1]` reads, at `(i, u)`, the operand at `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a `1024 × 1024` tile, at row `p`: the sum over the columns. -/
theorem rowSum_apply (v : FVec Ideal S1024x1024 .f32) (p : Fin 1024) :
    multiReduction .add [1] S1024 v 0x00000000#32 reduces_S1024x1024_S1024 (.inl rfl) rfl (ix1 p)
      = ∑ q : Fin 1024, v (ix2 p q) := by
  refine (Ideal.reduceAdd_single reduces_S1024x1024_S1024 v (ix1 p)).trans ?_
  refine Finset.sum_congr rfl fun q _ => congrArg v ?_
  funext c
  match c with
  | ⟨0, _⟩ => rfl
  | ⟨1, _⟩ => rfl

/-- The same sum kept as a column: at `(p, u)`, the sum over the columns of row `p`. -/
theorem rowSumCol_apply (v : FVec Ideal S1024x1024 .f32) (p : Fin 1024) (u : Fin 1) :
    shapeCast S1024x1 (multiReduction .add [1] S1024 v 0x00000000#32 reduces_S1024x1024_S1024
      (.inl rfl) rfl) shapeCasts_S1024_S1024x1 (ix2 p u) = ∑ q : Fin 1024, v (ix2 p q) :=
  (shapeCast_a_a1_apply _ _ p u).trans (rowSum_apply v p)

/-! ### The running sums -/

/-- The running sum of exponentials at row `p`: what was there plus the row sum of `exp` of the
    similarity tile. -/
theorem pay8_apply (x0 x1 : Vec Ideal S1024x512 .bf16) (v12 : Vec Ideal S1024x1 .f32) (p : Fin 1024)
    (i0 : Fin 1) :
    k1_pay8 (F := Ideal) x0 x1 v12 (ix2 p i0)
      = v12 (ix2 p i0) + ∑ q : Fin 1024, Ideal.exp (k1_pay7 (F := Ideal) x0 x1 (ix2 p q)) := by
  unfold k1_pay8
  rw [shapeCast_self]
  refine (addf_apply _ _ _).trans ?_
  exact congrArg (v12 (ix2 p i0) + ·) (rowSumCol_apply _ p i0)

/-! ### The positive-pair mask -/

/-- The comparison word of two labels, widened and converted: one where they are equal, zero elsewhere. -/
theorem eqMask_word (a b : BitVec 32) :
    FloatOps.sitofp (F := Ideal) .f32 ((IntOp.cmpi .eq a b).setWidth 32)
      = if a = b then (1 : EReal) else 0 := by
  by_cases h : a = b
  · have hc : IntOp.cmpi .eq a b = 1#1 := by simp [IntOp.cmpi, h]
    rw [if_pos h, hc]
    show ((((1#1 : BitVec 1).setWidth 32).toInt : ℝ) : EReal) = 1
    have : ((1#1 : BitVec 1).setWidth 32).toInt = 1 := by decide
    rw [this]; simp
  · have hc : IntOp.cmpi .eq a b = 0#1 := by
      show BitVec.ofBool (a == b) = 0#1
      rw [beq_eq_false_iff_ne.mpr h]
      rfl
    rw [if_neg h, hc]
    show ((((0#1 : BitVec 1).setWidth 32).toInt : ℝ) : EReal) = 0
    have : ((0#1 : BitVec 1).setWidth 32).toInt = 0 := by decide
    rw [this]; simp

/-- The mask tile at `(p, q)`: one where the row label equals the column label, zero elsewhere. -/
theorem pay9_apply (x2 : Vec Ideal S1024x1 .i32) (x3 : Vec Ideal S1x1024 .i32) (p q : Fin 1024)
    (i0 : Fin 1) :
    k1_pay9 (F := Ideal) x2 x3 (ix2 p q)
      = if x2 (ix2 p i0) = x3 (ix2 i0 q) then (1 : EReal) else 0 := by
  obtain rfl : i0 = 0 := Subsingleton.elim _ _
  unfold k1_pay9
  rw [shapeCast_self, shapeCast_self]
  show FloatOps.sitofp (F := Ideal) .f32 ((IntOp.cmpi .eq
      (broadcastTo S1024x1024 x2 broadcasts_S1024x1_S1024x1024 (ix2 p q))
      (broadcastTo S1024x1024 x3 broadcasts_S1x1024_S1024x1024 (ix2 p q))).setWidth 32) = _
  rw [broadcastTo_a1_ab_apply, broadcastTo_1b_ab_apply]
  exact eqMask_word _ _

/-- The running sum of masked similarities at row `p`: what was there plus the row sum of the mask
    times the similarity. -/
theorem pay10_apply (x0 x1 : Vec Ideal S1024x512 .bf16) (x2 : Vec Ideal S1024x1 .i32)
    (x3 : Vec Ideal S1x1024 .i32) (v28 : Vec Ideal S1024x1 .f32) (p : Fin 1024) (i0 : Fin 1) :
    k1_pay10 (F := Ideal) x0 x1 x2 x3 v28 (ix2 p i0)
      = v28 (ix2 p i0) + ∑ q : Fin 1024,
          k1_pay9 (F := Ideal) x2 x3 (ix2 p q) * k1_pay7 (F := Ideal) x0 x1 (ix2 p q) := by
  unfold k1_pay10
  refine (addf_apply _ _ _).trans ?_
  exact congrArg (v28 (ix2 p i0) + ·) (rowSumCol_apply _ p i0)

/-- The running count of positives at row `p`: what was there plus the row sum of the tile. -/
theorem pay2_apply (v27 : FVec Ideal S1024x1024 .f32) (v36 : Vec Ideal S1024x1 .f32) (p : Fin 1024)
    (i0 : Fin 1) :
    k1_pay2 (F := Ideal) v27 v36 (ix2 p i0) = v36 (ix2 p i0) + ∑ q : Fin 1024, v27 (ix2 p q) := by
  unfold k1_pay2
  rw [shapeCast_self]
  refine (addf_apply _ _ _).trans ?_
  exact congrArg (v36 (ix2 p i0) + ·) (rowSumCol_apply _ p i0)

/-! ### The finishing step and the initial values -/

/-- The row loss from the three accumulators: `log` of the first minus the quotient of the others. -/
theorem pay3_apply (v46 v48 v49 : Vec Ideal S1024x1 .f32) (j : S1024x1.Idx) :
    k1_pay3 (F := Ideal) v46 v48 v49 j = Ideal.log (v46 j) - Ideal.div (v48 j) (v49 j) := rfl

/-- A stored accumulator is stored unchanged. -/
theorem pay1_eq (v : FVec Ideal S1024x1 .f32) : k1_pay1 (F := Ideal) v = v := by
  unfold k1_pay1
  rw [shapeCast_self]

/-- The accumulators start at zero. -/
theorem pay4_eq : k1_pay4 (F := Ideal) = fun _ => (0 : EReal) := by
  show shapeCast S1024x1 (broadcast S1024x1 (FloatOps.ofBits (F := Ideal) .f32 0x00000000#32))
      shapeCasts_S1024x1_S1024x1 = _
  rw [shapeCast_self]
  funext j
  exact Ideal.ofBits_zero_f32
theorem pay5_eq : k1_pay5 (F := Ideal) = fun _ => (0 : EReal) := by
  show shapeCast S1024x1 (broadcast S1024x1 (FloatOps.ofBits (F := Ideal) .f32 0x00000000#32))
      shapeCasts_S1024x1_S1024x1 = _
  rw [shapeCast_self]
  funext j
  exact Ideal.ofBits_zero_f32
theorem pay6_eq : k1_pay6 (F := Ideal) = fun _ => (0 : EReal) := by
  show shapeCast S1024x1 (broadcast S1024x1 (FloatOps.ofBits (F := Ideal) .f32 0x00000000#32))
      shapeCasts_S1024x1_S1024x1 = _
  rw [shapeCast_self]
  funext j
  exact Ideal.ofBits_zero_f32

end Cert.KernelIdeal.R1pay

end
-- ==== Proof.Region1Value.lean ====
/-
  What the loss region leaves in its result array, on the extended reals.

  The grid is 8 × 8: point `t = 8 i + k` takes the 1024 rows of row block `i` against the 1024 rows of column
  block `k`.  With `s r c` the similarity of rows `r` and `c` and `m r c` the equality of their labels, the three
  running columns hold, after point `8 i + k` and at row `p` of the block, the sums over the column tiles
  `0, …, k` of the tile's row sums of `exp s`, of `m · s` and of `m` at the global row `1024 i + p` — by induction
  on the point: the first column tile starts them from zero, every later one adds its own row sums to what the
  point before left.  After the last column tile the eight tiles of 1024 columns are the 8192 columns, and the
  block written back is `log (∑ exp s) − (∑ m·s) / (∑ m)` row by row.  Row `r` of the result lies in the block
  written back at point `8 (r / 1024) + 7`, and these eight blocks tile the column.
-/
import proofs.«108453_j6356551598243_1_alg».proof.Proof.Region1
import proofs.«108453_j6356551598243_1_alg».proof.Proof.Region1Pieces
import proofs.«108453_j6356551598243_1_alg».proof.Proof.Region1Payloads
import proofs.«108453_j6356551598243_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.R1

open Cert.KernelIdeal Cert.KernelIdeal.Gen Cert.KernelIdeal.R1pay
open Idealize.ShloMosaic Idealize.ShloMosaic.TcCoe Idealize.SL.Sem
open Idealize.ShloMosaic.Pipeline (Dat)
open Idealize.ShloMosaic.ValueIdx

/-! ## The windows' blocks, read off the arrays -/

variable (V : (c : Dev nD) → (b : Ref sig .tc) → Buf (Elt Ideal) ((c : Thread nD τ).loc b))

/-- The index maps over the grid, at point `t = 8 i + k`: the two row windows and the output window are at row
    block `i`, the two column windows at block `k`. -/
theorem block_index1 : ∀ t : Fin cfg1.N,
    (win1_0.index t (0 : Fin 2) = t.val / 8 ∧ win1_0.index t (1 : Fin 2) = 0)
    ∧ (win1_1.index t (0 : Fin 2) = t.val % 8 ∧ win1_1.index t (1 : Fin 2) = 0)
    ∧ (win1_2.index t (0 : Fin 2) = t.val / 8 ∧ win1_2.index t (1 : Fin 2) = 0)
    ∧ (win1_3.index t (0 : Fin 2) = 0 ∧ win1_3.index t (1 : Fin 2) = t.val % 8)
    ∧ (win1_4.index t (0 : Fin 2) = t.val / 8 ∧ win1_4.index t (1 : Fin 2) = 0) :=
  (by decide +kernel : ∀ t : Fin grid1.N, _)

/-- Entry `x` of the row window's block at point `t` is the feature array's entry at row `1024 (t / 8) + x₀`. -/
theorem iblk1_0_apply (c : Dev nD) (t : Fin cfg1.N) (x : S1024x512.Idx) (i : S8192x512.Idx)
    (h0 : (i 0).val = t.val / 8 * 1024 + (x 0).val) (h1 : (i 1).val = (x 1).val) :
    (iblk1 V c 0 t : Vec Ideal S1024x512 .bf16) x = (V c main_v0 : S8192x512.Idx → EReal) i := by
  obtain ⟨⟨e0, e1⟩, -⟩ := block_index1 t
  unfold iblk1
  rw [View.read_apply]
  show V c main_v0 _ = V c main_v0 _
  congr 1
  funext a
  apply Fin.ext
  match a with
  | ⟨0, _⟩ => show win1_0.index t (0 : Fin 2) * 1024 + 1 * (x 0).val = (i 0).val; rw [e0, h0]; omega
  | ⟨1, _⟩ => show win1_0.index t (1 : Fin 2) * 512 + 1 * (x 1).val = (i 1).val; rw [e1, h1]; omega

/-- Entry `x` of the column window's block at point `t` is the feature array's entry at row `1024 (t % 8) + x₀`. -/
theorem iblk1_1_apply (c : Dev nD) (t : Fin cfg1.N) (x : S1024x512.Idx) (i : S8192x512.Idx)
    (h0 : (i 0).val = t.val % 8 * 1024 + (x 0).val) (h1 : (i 1).val = (x 1).val) :
    (iblk1 V c 1 t : Vec Ideal S1024x512 .bf16) x = (V c main_v0 : S8192x512.Idx → EReal) i := by
  obtain ⟨-, ⟨e0, e1⟩, -⟩ := block_index1 t
  unfold iblk1
  rw [View.read_apply]
  show V c main_v0 _ = V c main_v0 _
  congr 1
  funext a
  apply Fin.ext
  match a with
  | ⟨0, _⟩ => show win1_1.index t (0 : Fin 2) * 1024 + 1 * (x 0).val = (i 0).val; rw [e0, h0]; omega
  | ⟨1, _⟩ => show win1_1.index t (1 : Fin 2) * 512 + 1 * (x 1).val = (i 1).val; rw [e1, h1]; omega

/-- Entry `x` of the row-label window's block at point `t` is the label column's entry at row `1024 (t / 8) + x₀`. -/
theorem iblk1_2_apply (c : Dev nD) (t : Fin cfg1.N) (x : S1024x1.Idx) (i : S8192x1.Idx)
    (h0 : (i 0).val = t.val / 8 * 1024 + (x 0).val) (h1 : (i 1).val = (x 1).val) :
    (iblk1 V c 2 t : Vec Ideal S1024x1 .i32) x = (V c main_v1 : S8192x1.Idx → BitVec 32) i := by
  obtain ⟨-, -, ⟨e0, e1⟩, -⟩ := block_index1 t
  unfold iblk1
  rw [View.read_apply]
  show V c main_v1 _ = V c main_v1 _
  congr 1
  funext a
  apply Fin.ext
  match a with
  | ⟨0, _⟩ => show win1_2.index t (0 : Fin 2) * 1024 + 1 * (x 0).val = (i 0).val; rw [e0, h0]; omega
  | ⟨1, _⟩ => show win1_2.index t (1 : Fin 2) * 1 + 1 * (x 1).val = (i 1).val; rw [e1, h1]; omega

/-- Entry `x` of the column-label window's block at point `t` is the label row's entry at column `1024 (t % 8) + x₁`. -/
theorem iblk1_3_apply (c : Dev nD) (t : Fin cfg1.N) (x : S1x1024.Idx) (i : S1x8192.Idx)
    (h0 : (i 0).val = (x 0).val) (h1 : (i 1).val = t.val % 8 * 1024 + (x 1).val) :
    (iblk1 V c 3 t : Vec Ideal S1x1024 .i32) x = (V c main_v2 : S1x8192.Idx → BitVec 32) i := by
  obtain ⟨-, -, -, ⟨e0, e1⟩, -⟩ := block_index1 t
  unfold iblk1
  rw [View.read_apply]
  show V c main_v2 _ = V c main_v2 _
  congr 1
  funext a
  apply Fin.ext
  match a with
  | ⟨0, _⟩ => show win1_3.index t (0 : Fin 2) * 1 + 1 * (x 0).val = (i 0).val; rw [e0, h0]; omega
  | ⟨1, _⟩ => show win1_3.index t (1 : Fin 2) * 1024 + 1 * (x 1).val = (i 1).val; rw [e1, h1]; omega

/-! ## The arrays continued over the naturals

The feature and label arrays continued by zero past their last row, so that a row number built by
arithmetic needs no bound in the statement. -/

/-- The feature array's entry at row `r`, zero past the last row. -/
def featN (c : Dev nD) (r : ℕ) (d : Fin 512) : EReal :=
  if h : r < 8192 then (V c main_v0 : S8192x512.Idx → EReal) (ix2 (⟨r, h⟩ : Fin 8192) d) else 0
/-- The row label at row `r`. -/
def lqN (c : Dev nD) (r : ℕ) : BitVec 32 :=
  if h : r < 8192 then (V c main_v1 : S8192x1.Idx → BitVec 32) (ix2 (⟨r, h⟩ : Fin 8192) (0 : Fin 1)) else 0
/-- The column label at column `cc`. -/
def lkN (c : Dev nD) (cc : ℕ) : BitVec 32 :=
  if h : cc < 8192 then (V c main_v2 : S1x8192.Idx → BitVec 32) (ix2 (0 : Fin 1) (⟨cc, h⟩ : Fin 8192)) else 0
/-- The similarity of rows `r` and `cc`. -/
def simN (c : Dev nD) (r cc : ℕ) : EReal := (∑ d : Fin 512, featN V c r d * featN V c cc d) * Cert.SupCon.invTemp
/-- The positive-pair mask at `(r, cc)`. -/
def mskN (c : Dev nD) (r cc : ℕ) : EReal := if lqN V c r = lkN V c cc then 1 else 0

/-- The four blocks the body loads at point `t`. -/
abbrev X0 (c : Dev nD) (t : Fin cfg1.N) : Vec Ideal S1024x512 .bf16 := iblk1 V c 0 t
abbrev X1 (c : Dev nD) (t : Fin cfg1.N) : Vec Ideal S1024x512 .bf16 := iblk1 V c 1 t
abbrev X2 (c : Dev nD) (t : Fin cfg1.N) : Vec Ideal S1024x1 .i32 := iblk1 V c 2 t
abbrev X3 (c : Dev nD) (t : Fin cfg1.N) : Vec Ideal S1x1024 .i32 := iblk1 V c 3 t

theorem X0_apply (c : Dev nD) (t : Fin cfg1.N) (p : Fin 1024) (d : Fin 512) :
    X0 V c t (ix2 p d) = featN V c (t.val / 8 * 1024 + p.val) d := by
  have hN : cfg1.N = 64 := N_1
  have hR : t.val / 8 * 1024 + p.val < 8192 := by have := t.isLt; have := p.isLt; omega
  unfold featN
  rw [dif_pos hR]
  exact iblk1_0_apply V c t (ix2 p d) (ix2 (⟨_, hR⟩ : Fin 8192) d) rfl rfl

theorem X1_apply (c : Dev nD) (t : Fin cfg1.N) (q : Fin 1024) (d : Fin 512) :
    X1 V c t (ix2 q d) = featN V c (t.val % 8 * 1024 + q.val) d := by
  have hR : t.val % 8 * 1024 + q.val < 8192 := by have := q.isLt; omega
  unfold featN
  rw [dif_pos hR]
  exact iblk1_1_apply V c t (ix2 q d) (ix2 (⟨_, hR⟩ : Fin 8192) d) rfl rfl

theorem X2_apply (c : Dev nD) (t : Fin cfg1.N) (p : Fin 1024) :
    X2 V c t (ix2 p (0 : Fin 1)) = lqN V c (t.val / 8 * 1024 + p.val) := by
  have hN : cfg1.N = 64 := N_1
  have hR : t.val / 8 * 1024 + p.val < 8192 := by have := t.isLt; have := p.isLt; omega
  unfold lqN
  rw [dif_pos hR]
  exact iblk1_2_apply V c t (ix2 p (0 : Fin 1)) (ix2 (⟨_, hR⟩ : Fin 8192) (0 : Fin 1)) rfl rfl

theorem X3_apply (c : Dev nD) (t : Fin cfg1.N) (q : Fin 1024) :
    X3 V c t (ix2 (0 : Fin 1) q) = lkN V c (t.val % 8 * 1024 + q.val) := by
  have hR : t.val % 8 * 1024 + q.val < 8192 := by have := q.isLt; omega
  unfold lkN
  rw [dif_pos hR]
  exact iblk1_3_apply V c t (ix2 (0 : Fin 1) q) (ix2 (0 : Fin 1) (⟨_, hR⟩ : Fin 8192)) rfl rfl

/-- The similarity tile of point `t` at `(p, q)` is the similarity of the global row and column. -/
theorem tile_sim (c : Dev nD) (t : Fin cfg1.N) (p q : Fin 1024) :
    k1_pay7 (F := Ideal) (X0 V c t) (X1 V c t) (ix2 p q)
      = simN V c (t.val / 8 * 1024 + p.val) (t.val % 8 * 1024 + q.val) := by
  refine (pay7_apply _ _ p q).trans ?_
  unfold simN
  refine congrArg (· * Cert.SupCon.invTemp) (Finset.sum_congr rfl fun d _ => ?_)
  rw [X0_apply, X1_apply]

/-- The mask tile of point `t` at `(p, q)` is the mask of the global row and column. -/
theorem tile_msk (c : Dev nD) (t : Fin cfg1.N) (p q : Fin 1024) :
    k1_pay9 (F := Ideal) (X2 V c t) (X3 V c t) (ix2 p q)
      = mskN V c (t.val / 8 * 1024 + p.val) (t.val % 8 * 1024 + q.val) := by
  refine (pay9_apply _ _ p q (0 : Fin 1)).trans ?_
  unfold mskN
  rw [X2_apply, X3_apply]

/-! ## The accumulators, point by point -/

/-- At a first column tile the three accumulators are this tile's row sums added to zero. -/
theorem acc_first (c : Dev nD) (t : Fin cfg1.N) (h0 : t.val % 8 = 0) :
    (outsAt1 V c t.val t.isLt).2.1 = k1_pay8 (X0 V c t) (X1 V c t) (k1_pay4 (F := Ideal))
    ∧ (outsAt1 V c t.val t.isLt).2.2.1
        = k1_pay1 (k1_pay10 (X0 V c t) (X1 V c t) (X2 V c t) (X3 V c t) (k1_pay5 (F := Ideal)))
    ∧ (outsAt1 V c t.val t.isLt).2.2.2 = k1_pay2 (k1_pay9 (X2 V c t) (X3 V c t)) (k1_pay6 (F := Ideal)) := by
  have h1 : ¬t.val % 8 = 7 := by omega
  rw [outsAt1_A V c t h0 h1]
  dsimp only
  rw [soutA_0_eq, soutA_1_eq, soutA_2_eq]
  exact ⟨rfl, rfl, rfl⟩

/-- At a later column tile they are this tile's row sums added to what the point before left. -/
theorem acc_later (c : Dev nD) (t : Fin cfg1.N) (h0 : ¬t.val % 8 = 0) :
    (outsAt1 V c t.val t.isLt).2.1
        = k1_pay8 (X0 V c t) (X1 V c t) (outsAt1 V c (t.val - 1) (Nat.lt_of_le_of_lt (Nat.sub_le _ _) t.isLt)).2.1
    ∧ (outsAt1 V c t.val t.isLt).2.2.1
        = k1_pay1 (k1_pay10 (X0 V c t) (X1 V c t) (X2 V c t) (X3 V c t)
            (outsAt1 V c (t.val - 1) (Nat.lt_of_le_of_lt (Nat.sub_le _ _) t.isLt)).2.2.1)
    ∧ (outsAt1 V c t.val t.isLt).2.2.2
        = k1_pay2 (k1_pay9 (X2 V c t) (X3 V c t))
            (outsAt1 V c (t.val - 1) (Nat.lt_of_le_of_lt (Nat.sub_le _ _) t.isLt)).2.2.2 := by
  by_cases h1 : t.val % 8 = 7
  · rw [outsAt1_C V c t h0 h1]
    dsimp only
    rw [soutC_0_eq, soutC_1_eq, soutC_2_eq]
    exact ⟨rfl, rfl, rfl⟩
  · rw [outsAt1_B V c t h0 h1]
    dsimp only
    rw [soutB_0_eq, soutB_1_eq, soutB_2_eq]
    exact ⟨rfl, rfl, rfl⟩

/-- At a last column tile the output block is `log a - b / c` of the three accumulators as just stored. -/
theorem out_last (c : Dev nD) (t : Fin cfg1.N) (h1 : t.val % 8 = 7) :
    (outsAt1 V c t.val t.isLt).1
      = k1_pay3 (outsAt1 V c t.val t.isLt).2.1 (outsAt1 V c t.val t.isLt).2.2.1 (outsAt1 V c t.val t.isLt).2.2.2 := by
  have h0 : ¬t.val % 8 = 0 := by omega
  rw [outsAt1_C V c t h0 h1]
  dsimp only
  rw [outC_4_eq, soutC_0_eq, soutC_1_eq, soutC_2_eq]

/-- One tile's three row sums, at row `p` of point `m`. -/
def tE (c : Dev nD) (m : ℕ) (p : Fin 1024) : EReal :=
  ∑ q : Fin 1024, Ideal.exp (simN V c (m / 8 * 1024 + p.val) (m % 8 * 1024 + q.val))
def tMS (c : Dev nD) (m : ℕ) (p : Fin 1024) : EReal :=
  ∑ q : Fin 1024, mskN V c (m / 8 * 1024 + p.val) (m % 8 * 1024 + q.val)
    * simN V c (m / 8 * 1024 + p.val) (m % 8 * 1024 + q.val)
def tM (c : Dev nD) (m : ℕ) (p : Fin 1024) : EReal :=
  ∑ q : Fin 1024, mskN V c (m / 8 * 1024 + p.val) (m % 8 * 1024 + q.val)

/-- What a point adds to an accumulator `a`: the three payloads at row `p`. -/
theorem add_tile (c : Dev nD) (t : Fin cfg1.N) (a0 a1 a2 : Vec Ideal S1024x1 .f32) (p : Fin 1024) (i0 : Fin 1) :
    k1_pay8 (F := Ideal) (X0 V c t) (X1 V c t) a0 (ix2 p i0) = a0 (ix2 p i0) + tE V c t.val p
    ∧ k1_pay1 (F := Ideal) (k1_pay10 (X0 V c t) (X1 V c t) (X2 V c t) (X3 V c t) a1) (ix2 p i0)
        = a1 (ix2 p i0) + tMS V c t.val p
    ∧ k1_pay2 (F := Ideal) (k1_pay9 (X2 V c t) (X3 V c t)) a2 (ix2 p i0) = a2 (ix2 p i0) + tM V c t.val p := by
  refine ⟨?_, ?_, ?_⟩
  · refine (pay8_apply _ _ a0 p i0).trans (congrArg (a0 (ix2 p i0) + ·) ?_)
    exact Finset.sum_congr rfl fun q _ => congrArg Ideal.exp (tile_sim V c t p q)
  · rw [pay1_eq]
    refine (pay10_apply _ _ _ _ a1 p i0).trans (congrArg (a1 (ix2 p i0) + ·) ?_)
    exact Finset.sum_congr rfl fun q _ => by rw [tile_sim, tile_msk]
  · refine (pay2_apply _ a2 p i0).trans (congrArg (a2 (ix2 p i0) + ·) ?_)
    exact Finset.sum_congr rfl fun q _ => tile_msk V c t p q

/-- On a first column tile the accumulators hold that one tile's row sums. -/
theorem acc_closed_first (c : Dev nD) (t : Fin cfg1.N) (h0 : t.val % 8 = 0) (p : Fin 1024) (i0 : Fin 1) :
    (outsAt1 V c t.val t.isLt).2.1 (ix2 p i0) = ∑ j ∈ Finset.range (t.val % 8 + 1), tE V c (t.val - t.val % 8 + j) p
    ∧ (outsAt1 V c t.val t.isLt).2.2.1 (ix2 p i0) = ∑ j ∈ Finset.range (t.val % 8 + 1), tMS V c (t.val - t.val % 8 + j) p
    ∧ (outsAt1 V c t.val t.isLt).2.2.2 (ix2 p i0) = ∑ j ∈ Finset.range (t.val % 8 + 1), tM V c (t.val - t.val % 8 + j) p := by
  obtain ⟨e0, e1, e2⟩ := acc_first V c t h0
  obtain ⟨a0, a1, a2⟩ := add_tile V c t (k1_pay4 (F := Ideal)) (k1_pay5 (F := Ideal)) (k1_pay6 (F := Ideal)) p i0
  rw [e0, e1, e2, a0, a1, a2, pay4_eq, pay5_eq, pay6_eq, h0]
  simp only [Nat.zero_add, Finset.sum_range_one, Nat.sub_zero, Nat.add_zero, zero_add]
  exact ⟨trivial, trivial, trivial⟩

/-- The accumulators after point `n = 8 i + k`: the row sums of the tiles `8 i, …, 8 i + k`, added up. -/
theorem acc_closed (c : Dev nD) : ∀ (n : ℕ) (hn : n < cfg1.N) (p : Fin 1024) (i0 : Fin 1),
    (outsAt1 V c n hn).2.1 (ix2 p i0) = ∑ j ∈ Finset.range (n % 8 + 1), tE V c (n - n % 8 + j) p
    ∧ (outsAt1 V c n hn).2.2.1 (ix2 p i0) = ∑ j ∈ Finset.range (n % 8 + 1), tMS V c (n - n % 8 + j) p
    ∧ (outsAt1 V c n hn).2.2.2 (ix2 p i0) = ∑ j ∈ Finset.range (n % 8 + 1), tM V c (n - n % 8 + j) p := by
  intro n
  induction n with
  | zero => exact fun hn p i0 => acc_closed_first V c ⟨0, hn⟩ rfl p i0
  | succ m ih =>
    intro hn p i0
    by_cases h0 : (m + 1) % 8 = 0
    · exact acc_closed_first V c ⟨m + 1, hn⟩ h0 p i0
    · obtain ⟨e0, e1, e2⟩ := acc_later V c ⟨m + 1, hn⟩ h0
      have e0' : (outsAt1 V c (m + 1) hn).2.1
          = k1_pay8 (X0 V c ⟨m + 1, hn⟩) (X1 V c ⟨m + 1, hn⟩) (outsAt1 V c m (Nat.lt_of_succ_lt hn)).2.1 := e0
      have e1' : (outsAt1 V c (m + 1) hn).2.2.1
          = k1_pay1 (k1_pay10 (X0 V c ⟨m + 1, hn⟩) (X1 V c ⟨m + 1, hn⟩) (X2 V c ⟨m + 1, hn⟩) (X3 V c ⟨m + 1, hn⟩)
              (outsAt1 V c m (Nat.lt_of_succ_lt hn)).2.2.1) := e1
      have e2' : (outsAt1 V c (m + 1) hn).2.2.2
          = k1_pay2 (k1_pay9 (X2 V c ⟨m + 1, hn⟩) (X3 V c ⟨m + 1, hn⟩)) (outsAt1 V c m (Nat.lt_of_succ_lt hn)).2.2.2 := e2
      obtain ⟨a0, a1, a2⟩ := add_tile V c ⟨m + 1, hn⟩ (outsAt1 V c m (Nat.lt_of_succ_lt hn)).2.1
        (outsAt1 V c m (Nat.lt_of_succ_lt hn)).2.2.1 (outsAt1 V c m (Nat.lt_of_succ_lt hn)).2.2.2 p i0
      obtain ⟨i0', i1', i2'⟩ := ih (Nat.lt_of_succ_lt hn) p i0
      have k1 : (m + 1) % 8 = m % 8 + 1 := by omega
      have k2 : m + 1 - (m % 8 + 1) = m - m % 8 := by omega
      have k3 : m - m % 8 + (m % 8 + 1) = m + 1 := by omega
      rw [e0', e1', e2', a0, a1, a2, i0', i1', i2', k1, k2,
        Finset.sum_range_succ (fun j => tE V c (m - m % 8 + j) p) (m % 8 + 1),
        Finset.sum_range_succ (fun j => tMS V c (m - m % 8 + j) p) (m % 8 + 1),
        Finset.sum_range_succ (fun j => tM V c (m - m % 8 + j) p) (m % 8 + 1), k3]
      exact ⟨rfl, rfl, rfl⟩

/-- At a last column tile `t = 8 i + 7` the output block at row `p` is `log a - b / c` of the three sums over the
    eight tiles of row block `i`. -/
theorem out_closed (c : Dev nD) (t : Fin cfg1.N) (h7 : t.val % 8 = 7) (p : Fin 1024) (i0 : Fin 1) :
    (outsAt1 V c t.val t.isLt).1 (ix2 p i0)
      = Ideal.log (∑ j ∈ Finset.range 8, tE V c (t.val - 7 + j) p)
        - Ideal.div (∑ j ∈ Finset.range 8, tMS V c (t.val - 7 + j) p) (∑ j ∈ Finset.range 8, tM V c (t.val - 7 + j) p) := by
  obtain ⟨c0, c1, c2⟩ := acc_closed V c t.val t.isLt p i0
  rw [h7] at c0 c1 c2
  rw [out_last V c t h7]
  refine (pay3_apply _ _ _ _).trans ?_
  rw [c0, c1, c2]

/-! ## Eight tiles of 1024 columns are the 8192 columns -/

theorem sum_range_tiles (G : ℕ → EReal) (b : ℕ) : ∀ a : ℕ,
    ∑ j ∈ Finset.range a, ∑ q ∈ Finset.range b, G (j * b + q) = ∑ m ∈ Finset.range (a * b), G m
  | 0 => by simp
  | a + 1 => by
    rw [Finset.sum_range_succ, sum_range_tiles G b a, Nat.add_mul, Nat.one_mul, Finset.sum_range_add]

/-- A sum over the 8192 columns, tile by tile. -/
theorem sum_tiles (G : ℕ → EReal) :
    ∑ j ∈ Finset.range 8, ∑ q : Fin 1024, G (j * 1024 + q.val) = ∑ m : Fin 8192, G m.val := by
  have h := sum_range_tiles G 1024 8
  rw [show 8 * 1024 = 8192 from rfl] at h
  rw [← Finset.sum_range (fun m => G m), ← h]
  exact Finset.sum_congr rfl fun j _ => (Finset.sum_range (fun q => G (j * 1024 + q))).symm

/-! ## The row loss, and the arrays read at their own rows -/

/-- The loss of row `r`: `log (∑ exp s) - (∑ m·s) / (∑ m)` over all columns, with the similarity a product with the
    inverse temperature and the mask the equality of the row's and the column's labels. -/
def rowLoss (f : Fin 8192 → Fin 512 → EReal) (lq lk : Fin 8192 → BitVec 32) (r : Fin 8192) : EReal :=
  Ideal.log (∑ cc : Fin 8192, Ideal.exp ((∑ d : Fin 512, f r d * f cc d) * Cert.SupCon.invTemp))
    - Ideal.div (∑ cc : Fin 8192, (if lq r = lk cc then (1 : EReal) else 0) * ((∑ d : Fin 512, f r d * f cc d) * Cert.SupCon.invTemp)) (∑ cc : Fin 8192, (if lq r = lk cc then (1 : EReal) else 0))

theorem featN_val (c : Dev nD) (r : Fin 8192) (d : Fin 512) :
    featN V c r.val d = (V c main_v0 : S8192x512.Idx → EReal) (ix2 r d) := by
  unfold featN
  rw [dif_pos r.isLt]
theorem lqN_val (c : Dev nD) (r : Fin 8192) :
    lqN V c r.val = (V c main_v1 : S8192x1.Idx → BitVec 32) (ix2 r (0 : Fin 1)) := by
  unfold lqN
  rw [dif_pos r.isLt]
theorem lkN_val (c : Dev nD) (cc : Fin 8192) :
    lkN V c cc.val = (V c main_v2 : S1x8192.Idx → BitVec 32) (ix2 (0 : Fin 1) cc) := by
  unfold lkN
  rw [dif_pos cc.isLt]

/-- The eight tiles' row sums of row block `i` at row `p`, added up, are the sums over all 8192 columns at the global
    row `r = 1024 i + p`. -/
theorem rowSums (c : Dev nD) (t : Fin cfg1.N) (h7 : t.val % 8 = 7) (p : Fin 1024) (r : ℕ)
    (hr : r = t.val / 8 * 1024 + p.val) :
    ∑ j ∈ Finset.range 8, tE V c (t.val - 7 + j) p = ∑ cc : Fin 8192, Ideal.exp (simN V c r cc.val)
    ∧ ∑ j ∈ Finset.range 8, tMS V c (t.val - 7 + j) p = ∑ cc : Fin 8192, mskN V c r cc.val * simN V c r cc.val
    ∧ ∑ j ∈ Finset.range 8, tM V c (t.val - 7 + j) p = ∑ cc : Fin 8192, mskN V c r cc.val := by
  subst hr
  refine ⟨?_, ?_, ?_⟩
  · rw [← sum_tiles (fun cc => Ideal.exp (simN V c (t.val / 8 * 1024 + p.val) cc))]
    refine Finset.sum_congr rfl fun j hj => ?_
    have hj' := Finset.mem_range.mp hj
    unfold tE
    rw [show (t.val - 7 + j) / 8 = t.val / 8 by omega, show (t.val - 7 + j) % 8 = j by omega]
  · rw [← sum_tiles (fun cc => mskN V c (t.val / 8 * 1024 + p.val) cc * simN V c (t.val / 8 * 1024 + p.val) cc)]
    refine Finset.sum_congr rfl fun j hj => ?_
    have hj' := Finset.mem_range.mp hj
    unfold tMS
    rw [show (t.val - 7 + j) / 8 = t.val / 8 by omega, show (t.val - 7 + j) % 8 = j by omega]
  · rw [← sum_tiles (fun cc => mskN V c (t.val / 8 * 1024 + p.val) cc)]
    refine Finset.sum_congr rfl fun j hj => ?_
    have hj' := Finset.mem_range.mp hj
    unfold tM
    rw [show (t.val - 7 + j) / 8 = t.val / 8 by omega, show (t.val - 7 + j) % 8 = j by omega]

/-! ## From blocks to the array -/

/-- The row losses as one column: entry `(r, ·)` is the loss of row `r` of the arrays the region finds. -/
def lossArr (c : Dev nD) : S8192x1.Idx → EReal := fun i =>
  rowLoss (fun r d => (V c main_v0 : S8192x512.Idx → EReal) (ix2 r d))
    (fun r => (V c main_v1 : S8192x1.Idx → BitVec 32) (ix2 r (0 : Fin 1)))
    (fun cc => (V c main_v2 : S1x8192.Idx → BitVec 32) (ix2 (0 : Fin 1) cc)) (i 0)

/-- The row loss through any spelling of its similarities and masks. -/
theorem rowLoss_eq (f : Fin 8192 → Fin 512 → EReal) (lq lk : Fin 8192 → BitVec 32) (r : Fin 8192)
    (S M : Fin 8192 → EReal) (hS : ∀ cc, S cc = (∑ d : Fin 512, f r d * f cc d) * Cert.SupCon.invTemp)
    (hM : ∀ cc, M cc = if lq r = lk cc then (1 : EReal) else 0) :
    rowLoss f lq lk r = Ideal.log (∑ cc, Ideal.exp (S cc)) - Ideal.div (∑ cc, M cc * S cc) (∑ cc, M cc) := by
  unfold rowLoss
  simp only [hS, hM]

/-- The column of row losses at row `r`, through the arrays continued over the naturals. -/
theorem lossArr_apply (c : Dev nD) (r : Fin 8192) (i0 : Fin 1) :
    lossArr V c (ix2 r i0)
      = Ideal.log (∑ cc : Fin 8192, Ideal.exp (simN V c r.val cc.val))
        - Ideal.div (∑ cc : Fin 8192, mskN V c r.val cc.val * simN V c r.val cc.val)
            (∑ cc : Fin 8192, mskN V c r.val cc.val) :=
  rowLoss_eq (fun r d => (V c main_v0 : S8192x512.Idx → EReal) (ix2 r d))
    (fun r => (V c main_v1 : S8192x1.Idx → BitVec 32) (ix2 r (0 : Fin 1)))
    (fun cc => (V c main_v2 : S1x8192.Idx → BitVec 32) (ix2 (0 : Fin 1) cc)) r
    (fun cc => simN V c r.val cc.val) (fun cc => mskN V c r.val cc.val)
    (fun cc => by unfold simN; simp only [featN_val])
    (fun cc => by unfold mskN; simp only [lqN_val, lkN_val])

/-- What a last column tile `t = 8 i + 7` writes back is block `i` of the column of row losses. -/
theorem flushed_eq1 (c : Dev nD) (t : Fin cfg1.N) (hf : (cfg1.win 4).flush t = true) :
    (dat1 (F := Ideal) V c).flushed 4 t = ((cfg1.win 4).blk t).view.read (Elt Ideal) (lossArr V c) := by
  have h7 : t.val % 8 = 7 := (flush1_4 t).mp hf
  have hN : cfg1.N = 64 := N_1
  obtain ⟨-, -, -, -, ⟨e0, e1⟩⟩ := block_index1 t
  show (cfg1.win 4).cut (grid1.coords t) ((dat1 V c).after 4 t) = _
  rw [after1_4]
  funext j
  obtain ⟨p, i0, rfl⟩ : ∃ (p : Fin 1024) (i0 : Fin 1), j = ix2 p i0 := ⟨j 0, j 1, eq_ix2 j⟩
  have hR : t.val / 8 * 1024 + p.val < 8192 := by have := t.isLt; have := p.isLt; omega
  show (outsAt1 V c t.val t.isLt).1 (ix2 p i0) = lossArr V c (((cfg1.win 4).blk t).view.emb (ix2 p i0))
  have hE : ((cfg1.win 4).blk t).view.emb (ix2 p i0)
      = (ix2 (⟨t.val / 8 * 1024 + p.val, hR⟩ : Fin 8192) i0 : S8192x1.Idx) := by
    funext a
    apply Fin.ext
    match a with
    | ⟨0, _⟩ => show win1_4.index t (0 : Fin 2) * 1024 + 1 * p.val = t.val / 8 * 1024 + p.val; rw [e0]; omega
    | ⟨1, _⟩ => show win1_4.index t (1 : Fin 2) * 1 + 1 * i0.val = i0.val; rw [e1]; omega
  obtain ⟨s0, s1, s2⟩ := rowSums V c t h7 p (t.val / 8 * 1024 + p.val) rfl
  rw [hE, out_closed V c t h7 p i0, s0, s1, s2, lossArr_apply]

/-- An index of the column is in point `t`'s block iff each coordinate is in the block's range on its axis. -/
theorem mem_blk1 (t : Fin cfg1.N) (i : S8192x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v3).slice (win1_4.rect t)).set ↔ _
  rw [View.set_slice_whole, Rect.mem_set_unit]
  exact Iff.rfl

/-- Every row of the column is in the block of a point that writes back: row `r` in that of point `8 (r / 1024) + 7`. -/
theorem covered1 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 64 := N_1
  obtain ⟨t, ht⟩ : ∃ t : Fin cfg1.N, t.val = (i 0).val / 1024 * 8 + 7 :=
    ⟨⟨(i 0).val / 1024 * 8 + 7, by rw [hN]; omega⟩, rfl⟩
  obtain ⟨-, -, -, -, ⟨e0, e1⟩⟩ := block_index1 t
  refine ⟨t, (flush1_4 t).mpr (by omega), ?_⟩
  rw [mem_blk1]
  intro a
  match a with
  | ⟨0, _⟩ =>
    show win1_4.index t (0 : Fin 2) * 1024 ≤ (i 0).val ∧ (i 0).val < win1_4.index t (0 : Fin 2) * 1024 + 1024
    rw [e0, ht]; omega
  | ⟨1, _⟩ =>
    show win1_4.index t (1 : Fin 2) * 1 ≤ (i 1).val ∧ (i 1).val < win1_4.index t (1 : Fin 2) * 1 + 1
    rw [e1]; omega

/-- The output array after the last write-back is the column of row losses. -/
theorem final_arr1 (c : Dev nD) : (dat1 (F := Ideal) V c).arrAt 4 cfg1.N = lossArr V c :=
  (dat1 (F := Ideal) V c).arrAt_eq_of_cover 4 (lossArr V c) (fun t hf => flushed_eq1 V c t hf) covered1

/-- Entry `(r, ·)` of the array the region leaves is the loss of row `r`. -/
theorem final_v3 (V : (c : Dev nD) → (b : Ref sig .tc) → Buf (Elt Ideal) ((c : Thread nD τ).loc b)) (c : Dev nD)
    (r : Fin 8192) (i0 : Fin 1) :
    (dat1 (F := Ideal) V c).arrAt 4 cfg1.N (ValueIdx.ix2 r i0)
      = rowLoss (fun r d => V c main_v0 (ValueIdx.ix2 r d)) (fun r => V c main_v1 (ValueIdx.ix2 r i0))
          (fun cc => V c main_v2 (ValueIdx.ix2 i0 cc)) r := by
  obtain rfl : i0 = 0 := Subsingleton.elim _ _
  rw [final_arr1]
  rfl

end Cert.KernelIdeal.R1

end
-- ==== Proof.HostSide.lean ====
/-
  The host operations of the kernel program, read at an index, and finiteness of the features.

  Between its two regions the kernel program views the label vector as a column and as a row; after
  the second region it sums the column of row losses and divides by the number of rows.  A view of a
  vector as a column or a row holds, at row (or column) `r`, the vector's entry `r`; the sum over
  both axes of a column is the sum of its entries; so the program's result is the mean of the
  column the second region leaves.  Last, the precondition says every feature's absolute value is
  below `+∞`, which makes every feature a real number.
-/
import proofs.«108453_j6356551598243_1_alg».proof.Proof.Gen.KernelIdeal.Launch
import proofs.«108453_j6356551598243_1_alg».proof.Proof.Gen.KernelIdeal.Regions
import proofs.«108453_j6356551598243_1_alg».proof.Pre_finite_inputs
import proofs.«108453_j6356551598243_1_alg».proof.Proof.Gen.Pre_finite_inputs
import proofs.«108453_j6356551598243_1_alg».proof.Defs
import proofs.«108453_j6356551598243_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-! ## The label vector viewed as a column and as a row -/

/-- The column view is the shape cast of the label vector. -/
theorem col_eq : (StableHlo.after (hostOps1 (F := Ideal)) W (Proc.devRef .tc main_v1) : S8192x1.Idx → BitVec 32)
    = shapeCast S8192x1 (W (Proc.devRef .tc main_arg1) : S8192.Idx → BitVec 32) shapeCasts_S8192_S8192x1 := by
  after_results
  rfl

/-- The row view is the shape cast of the label vector. -/
theorem row_eq : (StableHlo.after (hostOps1 (F := Ideal)) W (Proc.devRef .tc main_v2) : S1x8192.Idx → BitVec 32)
    = shapeCast S1x8192 (W (Proc.devRef .tc main_arg1) : S8192.Idx → BitVec 32) shapeCasts_S8192_S1x8192 := by
  after_results
  rfl

/-- The column view at row `r` is the label of `r`. -/
theorem col_apply (r : Fin 8192) (i0 : Fin 1) :
    (StableHlo.after (hostOps1 (F := Ideal)) W (Proc.devRef .tc main_v1) : S8192x1.Idx → BitVec 32) (ix2 r i0)
      = (W (Proc.devRef .tc main_arg1) : S8192.Idx → BitVec 32) (ix1 r) := by
  rw [col_eq]
  refine shapeCast_apply _ _ _ (ix1 r) ?_
  rw [Shape.rowMajor_val_one, Shape.rowMajor_val_two]
  show r.val = r.val * 1 + i0.val
  omega

/-- The row view at column `r` is the label of `r`. -/
theorem row_apply (r : Fin 8192) (i0 : Fin 1) :
    (StableHlo.after (hostOps1 (F := Ideal)) W (Proc.devRef .tc main_v2) : S1x8192.Idx → BitVec 32) (ix2 i0 r)
      = (W (Proc.devRef .tc main_arg1) : S8192.Idx → BitVec 32) (ix1 r) := by
  rw [row_eq]
  refine shapeCast_apply _ _ _ (ix1 r) ?_
  rw [Shape.rowMajor_val_one, Shape.rowMajor_val_two]
  show r.val = i0.val * 8192 + r.val
  omega

/-- The two views write neither the normalised rows nor the arguments. -/
theorem hostOps1_main_v0 :
    StableHlo.after (hostOps1 (F := Ideal)) W (Proc.devRef .tc main_v0) = W (Proc.devRef .tc main_v0) :=
  StableHlo.after_of_writes_sub hostOps1 W hostOps1_writes (by decide)
theorem hostOps1_main_arg0 :
    StableHlo.after (hostOps1 (F := Ideal)) W (Proc.devRef .tc main_arg0) = W (Proc.devRef .tc main_arg0) :=
  StableHlo.after_of_writes_sub hostOps1 W hostOps1_writes (by decide)
theorem hostOps1_main_arg1 :
    StableHlo.after (hostOps1 (F := Ideal)) W (Proc.devRef .tc main_arg1) = W (Proc.devRef .tc main_arg1) :=
  StableHlo.after_of_writes_sub hostOps1 W hostOps1_writes (by decide)

/-! ## The mean of the column of row losses -/

/-- The program's result is the quotient, by the number of rows, of the sum over both axes of the column. -/
theorem result_term : (StableHlo.after (hostOps2 (F := Ideal)) W (Proc.devRef .tc main_v5) : S_.Idx → EReal)
    = Host.divf (Host.reduceAdd (W (Proc.devRef .tc main_v3) : S8192x1.Idx → EReal)
        (constant (F := Ideal) S_ .f32 0x00000000#32) reducesTo_S8192x1_S_d0_1 h_S_)
        (constant (F := Ideal) S_ .f32 0x46000000#32) := by
  after_results

/-- The sum over both axes of a column is the sum of its entries. -/
theorem sum_col {M : Type*} [AddCommMonoid M] (f : S8192x1.Idx → M) (i0 : Fin 1) :
    ∑ i, f i = ∑ r : Fin 8192, f (ix2 r i0) := by
  rw [sum_idx2]
  refine Finset.sum_congr rfl fun r _ => ?_
  rw [Fin.sum_univ_one, Subsingleton.elim i0 0]

/-- The quotient, by the number of rows, of the sum over both axes of a column is the mean of its entries. -/
theorem mean_col (y : S8192x1.Idx → EReal) (i0 : Fin 1) (i : S_.Idx) :
    Host.divf (Host.reduceAdd (F := Ideal) (φ := .f32) y (constant (F := Ideal) S_ .f32 0x00000000#32) reducesTo_S8192x1_S_d0_1 h_S_)
        (constant (F := Ideal) S_ .f32 0x46000000#32) i
      = Ideal.div (∑ r : Fin 8192, y (ix2 r i0)) Cert.SupCon.rows := by
  show Ideal.div (Host.reduceAdd (F := Ideal) (φ := .f32) y (constant (F := Ideal) S_ .f32 0x00000000#32) reducesTo_S8192x1_S_d0_1 h_S_ i)
    (Ideal.ofBits .f32 0x46000000#32) = _
  simp only [Host.reduceAdd, Ideal.hostReduceAdd_def]
  rw [Ideal.hostReduceAdd_total reducesTo_S8192x1_S_d0_1 (fun b => b.elim0) y _ i, sum_col y i0]
  show Ideal.div (Ideal.ofBits .f32 0x00000000#32 + _) _ = _
  rw [Ideal.ofBits_zero_f32, zero_add]
  rfl

/-- The program's result is the mean of the column the second region leaves. -/
theorem result_eq (i0 : Fin 1) :
    (StableHlo.after (hostOps2 (F := Ideal)) W (Proc.devRef .tc main_v5) : S_.Idx → EReal)
      = fun _ => Ideal.div (∑ r : Fin 8192, (W (Proc.devRef .tc main_v3) : S8192x1.Idx → EReal) (ix2 r i0)) Cert.SupCon.rows := by
  rw [result_term]
  funext i
  exact mean_col _ i0 i

/-- The final operations write neither argument. -/
theorem hostOps2_main_arg0 :
    StableHlo.after (hostOps2 (F := Ideal)) W (Proc.devRef .tc main_arg0) = W (Proc.devRef .tc main_arg0) :=
  StableHlo.after_of_writes_sub hostOps2 W hostOps2_writes (by decide)
theorem hostOps2_main_arg1 :
    StableHlo.after (hostOps2 (F := Ideal)) W (Proc.devRef .tc main_arg1) = W (Proc.devRef .tc main_arg1) :=
  StableHlo.after_of_writes_sub hostOps2 W hostOps2_writes (by decide)

/-! ## Every feature is a real number -/

instance : Subsingleton Cert.Pre_finite_inputs.S_.Idx := ⟨fun a b => funext fun d => d.elim0⟩

/-- An extended real whose absolute value is below `+∞` is neither infinity. -/
theorem finite_of_abs_lt (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  constructor
  · rintro rfl; simp at hlt
  · rintro rfl; simp at hlt

/-- Under the precondition every entry of the feature array is finite. -/
theorem finite_of_pre (m : (ℓ : Loc nD τ sig) → Buf (Elt Ideal) ℓ) (h : Cert.Pre_KernelIdeal m) (c : Dev Cert.KernelIdeal.nD)
    (r : Fin 8192) (d : Fin 512) :
    (m ((c.tc : Thread nD τ).loc main_arg0)) (ix2 r d) ≠ (⊤ : EReal)
      ∧ (m ((c.tc : Thread nD τ).loc main_arg0)) (ix2 r d) ≠ (⊥ : EReal) := by
  have h0 := congrFun (h c) ix0
  dsimp only [Cert.Pre_finite_inputs.fn] at h0
  have h1 := Host.reduce_andi_all _ _ _ _ ix0 h0 (ix2 r d)
  exact finite_of_abs_lt _ h1

end Cert.KernelIdeal.Host

end
-- ==== Proof.KernelValue.lean ====
/-
  The kernel program's result, on the extended reals, is the accumulated spelling of the loss.

  The loss region reads three arrays: the normalised rows the first region left (which the label
  reshapes do not touch), and the label vector viewed as a column and as a row, each holding at
  position `r` the label of row `r`.  On those the region's row loss
  `log (∑ exp s) - (∑ m·s) / (∑ m)`, with `s` the inner product of normalised rows times the inverse
  temperature and `m` the agreement of labels, is the specification's; the final host operations
  take the mean of that column over the rows.
-/
import proofs.«108453_j6356551598243_1_alg».proof.Proof.Run
import proofs.«108453_j6356551598243_1_alg».proof.Proof.Region0Value
import proofs.«108453_j6356551598243_1_alg».proof.Proof.Region1Value
import proofs.«108453_j6356551598243_1_alg».proof.Proof.HostSide
import proofs.«108453_j6356551598243_1_alg».proof.Proof.Spec
import Idealize.ShloMosaic.Lib.ValueIdx

noncomputable section

namespace Cert.KernelIdeal.Run

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The feature array at launch, as a function of the row and the feature coordinate. -/
abbrev xs (c : Dev nD) : Fin 8192 → Fin 512 → EReal :=
  fun r d => (m ((c.tc : Thread nD τ).loc main_arg0)) (ix2 r d)
/-- The label array at launch, as a function of the row. -/
abbrev ls (c : Dev nD) : Fin 8192 → BitVec 32 :=
  fun r => (m ((c.tc : Thread nD τ).loc main_arg1)) (ix1 r)

/-! ## What the loss region reads -/

/-- The first region's result array, as the loss region finds it, holds the normalised rows. -/
theorem V2_main_v0_apply (c : Dev nD) (r : Fin 8192) (d : Fin 512) :
    (V2 (F := Ideal) m ρ c main_v0) (ix2 r d) = Cert.SupCon.unit (xs m c) r d := by
  have e : V2 (F := Ideal) m ρ c main_v0 = (R0.dat0 (F := Ideal) (V0 m ρ) c).arrAt 1 cfg0.N :=
    (Host.hostOps1_main_v0 (W1 m ρ c)).trans (W1_arr m ρ c 1)
  exact (congrFun e (ix2 r d)).trans (R0.final_v0 (V0 m ρ) c r d)

/-- The label column, as the loss region finds it, holds the labels. -/
theorem V2_main_v1_apply (c : Dev nD) (r : Fin 8192) (i0 : Fin 1) :
    (V2 (F := Ideal) m ρ c main_v1) (ix2 r i0) = ls m c r :=
  (Host.col_apply (W1 m ρ c) r i0).trans (congrFun (W1_of_ne m ρ c main_arg1 (by decide)) (ix1 r))

/-- The label row, as the loss region finds it, holds the labels. -/
theorem V2_main_v2_apply (c : Dev nD) (r : Fin 8192) (i0 : Fin 1) :
    (V2 (F := Ideal) m ρ c main_v2) (ix2 i0 r) = ls m c r :=
  (Host.row_apply (W1 m ρ c) r i0).trans (congrFun (W1_of_ne m ρ c main_arg1 (by decide)) (ix1 r))

/-! ## What the loss region leaves -/

/-- On normalised rows and one label function for rows and columns, the region's row loss is the accumulated
    spelling of the specification's. -/
theorem rowLoss_unit (x : Fin 8192 → Fin 512 → EReal) (l : Fin 8192 → BitVec 32) (r : Fin 8192) :
    R1.rowLoss (Cert.SupCon.unit x) l l r = Cert.SupCon.rowP x l r := rfl

/-- The column the loss region leaves holds the row losses. -/
theorem W3_main_v3_apply (c : Dev nD) (r : Fin 8192) (i0 : Fin 1) :
    (W3 (F := Ideal) m ρ c (Proc.devRef .tc main_v3)) (ix2 r i0) = Cert.SupCon.rowP (xs m c) (ls m c) r := by
  have e0 : (fun r d => V2 (F := Ideal) m ρ c main_v0 (ix2 r d)) = Cert.SupCon.unit (xs m c) :=
    funext fun r => funext fun d => V2_main_v0_apply m ρ c r d
  have e1 : (fun r => V2 (F := Ideal) m ρ c main_v1 (ix2 r i0)) = ls m c :=
    funext fun r => V2_main_v1_apply m ρ c r i0
  have e2 : (fun cc => V2 (F := Ideal) m ρ c main_v2 (ix2 i0 cc)) = ls m c :=
    funext fun cc => V2_main_v2_apply m ρ c cc i0
  refine (congrFun (V3_main_v3 m ρ c).symm (ix2 r i0)).trans ((R1.final_v3 (V2 m ρ) c r i0).trans ?_)
  rw [e0, e1, e2]
  exact rowLoss_unit _ _ r

/-! ## The result -/

/-- The kernel program's result is the accumulated spelling of the loss of its two argument arrays. -/
theorem result_eq (c : Dev nD) :
    W4 (F := Ideal) m ρ c (Proc.devRef .tc main_v5) = fun _ => Cert.SupCon.lossP (xs m c) (ls m c) := by
  refine (Host.result_eq (W3 m ρ c) 0).trans ?_
  funext _
  unfold Cert.SupCon.lossP
  exact congrArg (Ideal.div · Cert.SupCon.rows) (Finset.sum_congr rfl fun r _ => W3_main_v3_apply m ρ c r 0)

end Cert.KernelIdeal.Run

end
-- ==== Proof.RefSide.lean ====
/-
  The reference program's result is the quotient spelling of the supervised-contrastive loss.

  The reference normalises the rows of the feature array by the guarded Euclidean norm, forms every
  pairwise inner product of the normalised rows, divides by the temperature, and for each row
  takes the mean over the columns with the same label of `-log (exp s / ∑ exp s)`; the result is the
  mean over the rows.  Read stage by stage at indices written by their coordinates, each
  intermediate array is the corresponding function of `Cert.SupCon`: the squared norms, the guarded
  norms, the normalised rows, the inner products, the similarities, the row sums of exponentials,
  the label mask, the masked log-ratios, the row losses, and finally their mean.
-/
import proofs.«108453_j6356551598243_1_alg».proof.Proof.Spec
import proofs.«108453_j6356551598243_1_alg».proof.Proof.Gen.ReferenceIdeal.Run
import proofs.«108453_j6356551598243_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The feature array as a function of the row and the feature coordinate. -/
abbrev xs (a : (⟨S8192x512, .f32⟩ : BufTy).Contents (Elt Ideal)) : Fin 8192 → Fin 512 → EReal :=
  fun r d => a (ix2 r d)
/-- The label array as a function of the row. -/
abbrev ls (b : (⟨S8192, .i32⟩ : BufTy).Contents (Elt Ideal)) : Fin 8192 → BitVec 32 :=
  fun r => b (ix1 r)

variable (a : (⟨S8192x512, .f32⟩ : BufTy).Contents (Elt Ideal)) (b : (⟨S8192, .i32⟩ : BufTy).Contents (Elt Ideal))

/-! ## The normalised rows -/

/-- The row sums of squares. -/
theorem sumsq_eq (r : Fin 8192) :
    val_main_call0_v1 (F := Ideal) a (ix1 r) = ∑ d : Fin 512, xs a r d * xs a r d := by
  rw [val_main_call0_v1_apply, val_main_call0_cst_apply, Ideal.ofBits_def, Ideal.ofBits_zero_f32, zero_add]
  refine Finset.sum_congr rfl fun k _ => ?_
  have e : idx_main_call0_v1 (ix1 r) k = ix2 r k :=
    funext fun d => Fin.ext (by match d with | ⟨0, _⟩ => rfl | ⟨1, _⟩ => rfl)
  rw [val_main_call0_v0_apply, e, Ideal.mulf_def]

/-- The guarded norm of a row, as the reference's column array holds it. -/
theorem nrm_eq (r : Fin 8192) :
    val_main_v2 (F := Ideal) a (ix2 r (0 : Fin 1)) = Cert.SupCon.nrm (xs a) r := by
  have e : idx_main_call0_v2 (ix2 r (0 : Fin 1)) = ix1 r :=
    funext fun d => Fin.ext (by match d with | ⟨0, _⟩ => rfl)
  rw [val_main_v2_apply, val_main_v0_apply, val_main_call0_v2_apply, e, sumsq_eq, val_main_v1_apply,
    val_main_cst_apply, Ideal.maximumf_def, Ideal.hostUnary_sqrt_def, Ideal.ofBits_def]
  rfl

/-- The normalised rows. -/
theorem unit_eq (r : Fin 8192) (d : Fin 512) :
    val_main_v4 (F := Ideal) a (ix2 r d) = Cert.SupCon.unit (xs a) r d := by
  have e : idx_main_v3 (ix2 r d) = ix2 r (0 : Fin 1) :=
    funext fun c => Fin.ext (by match c with | ⟨0, _⟩ => rfl | ⟨1, _⟩ => rfl)
  rw [val_main_v4_apply, val_main_v3_apply, e, nrm_eq, Ideal.hostDivf_def]
  rfl

/-! ## The similarities -/

/-- The inner product of two normalised rows. -/
theorem dot_eq (r c : Fin 8192) :
    val_main_v6 (F := Ideal) a (ix2 r c) = Cert.SupCon.dot (xs a) r c := by
  rw [val_main_v6_apply]
  refine Finset.sum_congr rfl fun k _ => ?_
  have el : lidx_main_v6 (ix2 r c) k = ix2 r k :=
    funext fun d => Fin.ext (by match d with | ⟨0, _⟩ => rfl | ⟨1, _⟩ => rfl)
  have er : idx_main_v5 (ridx_main_v6 (ix2 r c) k) = ix2 c k :=
    funext fun d => Fin.ext (by match d with | ⟨0, _⟩ => rfl | ⟨1, _⟩ => rfl)
  rw [val_main_v5_apply, el, er, unit_eq, unit_eq]

/-- The similarity: the inner product divided by the temperature. -/
theorem simQ_eq (r c : Fin 8192) :
    val_main_v8 (F := Ideal) a (ix2 r c) = Cert.SupCon.simQ (xs a) r c := by
  rw [val_main_v8_apply, dot_eq, val_main_v7_apply, val_main_cst_0_apply, Ideal.hostDivf_def, Ideal.ofBits_def]
  rfl

/-! ## The row sums of exponentials -/

/-- The exponential of the similarity. -/
theorem exp_eq (r c : Fin 8192) :
    val_main_v9 (F := Ideal) a (ix2 r c) = Ideal.exp (Cert.SupCon.simQ (xs a) r c) := by
  rw [val_main_v9_apply, simQ_eq, Ideal.hostUnary_exp_def]

/-- The sum over a row of the exponentials. -/
theorem expsum_eq (r : Fin 8192) :
    val_main_v16 (F := Ideal) a (ix1 r) = ∑ c : Fin 8192, Ideal.exp (Cert.SupCon.simQ (xs a) r c) := by
  rw [val_main_v16_apply, val_main_cst_1_apply, Ideal.ofBits_def, Ideal.ofBits_zero_f32, zero_add]
  refine Finset.sum_congr rfl fun k _ => ?_
  have e : idx_main_v16 (ix1 r) k = ix2 r k :=
    funext fun d => Fin.ext (by match d with | ⟨0, _⟩ => rfl | ⟨1, _⟩ => rfl)
  rw [e, exp_eq]

/-! ## The label mask -/

/-- A one-bit comparison read as an unsigned integer is one where the words agree and zero elsewhere. -/
theorem uitofp_cmpi_eq (x y : BitVec 32) :
    FloatOps.uitofp (F := Ideal) .f32 (IntOp.cmpi .eq x y) = if x = y then 1 else 0 := by
  show (((IntOp.cmpi .eq x y).toNat : ℝ) : EReal) = _
  by_cases h : x = y
  · rw [if_pos h, (IntOp.cmpi_eq).mpr h]
    simp
  · rw [if_neg h, eq_zero_of_ne_one (fun h1 => h ((IntOp.cmpi_eq).mp h1))]
    simp

/-- The mask: one where the two rows carry the same label. -/
theorem msk_eq (r c : Fin 8192) :
    val_main_v15 (F := Ideal) b (ix2 r c) = Cert.SupCon.msk (ls b) r c := by
  have e1 : idx_main_v10 (idx_main_v12 (ix2 r c)) = ix1 r :=
    funext fun d => Fin.ext (by match d with | ⟨0, _⟩ => rfl)
  have e2 : idx_main_v11 (idx_main_v13 (ix2 r c)) = ix1 c :=
    funext fun d => Fin.ext (by match d with | ⟨0, _⟩ => rfl)
  rw [val_main_v15_apply, val_main_v14_apply, val_main_v12_apply, val_main_v10_apply, e1,
    val_main_v13_apply, val_main_v11_apply, e2, uitofp_cmpi_eq]
  rfl

/-! ## The row losses -/

/-- The masked logarithm of the ratio of an exponential to its row sum. -/
theorem logterm_eq (r c : Fin 8192) :
    val_main_v21 (F := Ideal) a b (ix2 r c)
      = Cert.SupCon.msk (ls b) r c * Ideal.log (Ideal.div (Ideal.exp (Cert.SupCon.simQ (xs a) r c))
          (∑ c' : Fin 8192, Ideal.exp (Cert.SupCon.simQ (xs a) r c'))) := by
  have e : idx_main_v17 (idx_main_v18 (ix2 r c)) = ix1 r :=
    funext fun d => Fin.ext (by match d with | ⟨0, _⟩ => rfl)
  rw [val_main_v21_apply, msk_eq, val_main_v20_apply, val_main_v19_apply, exp_eq, val_main_v18_apply,
    val_main_v17_apply, e, expsum_eq, Ideal.mulf_def, Ideal.hostUnary_log_def, Ideal.hostDivf_def]

/-- The number of columns carrying a row's label. -/
theorem count_eq (r : Fin 8192) :
    val_main_v24 (F := Ideal) b (ix1 r) = ∑ c : Fin 8192, Cert.SupCon.msk (ls b) r c := by
  rw [val_main_v24_apply, val_main_cst_3_apply, Ideal.ofBits_def, Ideal.ofBits_zero_f32, zero_add]
  refine Finset.sum_congr rfl fun k _ => ?_
  have e : idx_main_v24 (ix1 r) k = ix2 r k :=
    funext fun d => Fin.ext (by match d with | ⟨0, _⟩ => rfl | ⟨1, _⟩ => rfl)
  rw [e, msk_eq]

/-- The loss of a row. -/
theorem rowQ_eq (r : Fin 8192) :
    val_main_v25 (F := Ideal) a b (ix1 r) = Cert.SupCon.rowQ (xs a) (ls b) r := by
  rw [val_main_v25_apply, val_main_v23_apply, val_main_v22_apply, val_main_cst_2_apply, count_eq,
    Ideal.ofBits_def, Ideal.ofBits_zero_f32, zero_add, Ideal.hostDivf_def, Ideal.hostNegf_def, Ideal.negf_def]
  have e : ∀ k : Fin 8192, idx_main_v22 (ix1 r) k = ix2 r k := fun k =>
    funext fun d => Fin.ext (by match d with | ⟨0, _⟩ => rfl | ⟨1, _⟩ => rfl)
  rw [Finset.sum_congr rfl fun k _ => by rw [e k, logterm_eq]]
  rfl

/-! ## The mean over the rows -/

/-- A rank-one index set is its coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

/-- The reference's result, as a function of its two argument arrays, is the quotient spelling of the loss. -/
theorem result_eq :
    val_main_v27 (F := Ideal) a b = fun _ => Cert.SupCon.lossQ (xs a) (ls b) := by
  funext i
  rw [val_main_v27_apply, val_main_v26_apply, val_main_cst_4_apply, val_main_cst_5_apply, Ideal.ofBits_def,
    Ideal.ofBits_def, Ideal.ofBits_zero_f32, zero_add, Ideal.hostDivf_def, sum_idx1]
  rw [Finset.sum_congr rfl fun r _ => rowQ_eq a b r]
  rfl

/-! ## The reference's run -/

/-- Every weakly fair execution of the reference program terminates with its result buffer at the quotient
    spelling of the loss of its two argument arrays, which end unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v27)
          = (fun _ => Cert.SupCon.lossQ
              (xs (m' ((c.tc : Thread Cert.ReferenceIdeal.nD Cert.ReferenceIdeal.τ).loc Cert.ReferenceIdeal.main_arg0)))
              (ls (m' ((c.tc : Thread Cert.ReferenceIdeal.nD Cert.ReferenceIdeal.τ).loc Cert.ReferenceIdeal.main_arg1))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v27_eq _ _).trans (result_eq _ _)), (h c).2⟩)
    (Cert.ReferenceIdeal.Value.run (F := Ideal) m' ρ')

end Cert.ReferenceIdeal.RefValue

end
-- ==== Proof.LossLaw.lean ====
/-
  The two spellings of the supervised-contrastive loss agree on finite inputs.

  On finite inputs every intermediate quantity is a real number: the guarded norm is a positive
  real, the normalised rows and their inner products are real, and the similarity is the same real
  in both spellings because multiplying by `134217728 / 9395241` is dividing by
  `9395241 / 134217728`.  For real similarities `s c`, real weights `m c` with `∑ m ≠ 0`, and
  `Z = ∑ exp s`, the identity `log (exp (s c) / Z) = s c - log Z` gives

      (-(∑ m c · log (exp (s c) / Z))) / (∑ m) = log Z - (∑ m c · s c) / (∑ m),

  which is the equality of the two row losses; the means over the rows then agree term by term.
-/
import proofs.«108453_j6356551598243_1_alg».proof.Proof.Spec

noncomputable section

namespace Cert.SupCon

open Idealize.ShloMosaic

/-! ### Real arithmetic inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The quotient of two reals with nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The logarithm of a positive real is the real logarithm. -/
theorem log_coe_pos {z : ℝ} (hz : 0 < z) : Ideal.log (z : EReal) = (Real.log z : EReal) := by
  rw [Ideal.log_coe, if_neg (not_le.2 hz)]

/-- The square root of a nonnegative real is the real square root. -/
theorem sqrt_coe_nonneg {a : ℝ} (ha : 0 ≤ a) : Ideal.sqrt (a : EReal) = (Real.sqrt a : EReal) := by
  rw [Ideal.sqrt_coe, if_neg (not_lt.2 ha)]

/-! ### The row law -/

/-- For real similarities `s` and real weights `m` of nonzero total, the accumulated spelling
    `log (∑ exp s) - (∑ m·s) / (∑ m)` is the entry-by-entry spelling
    `(-(∑ m · log (exp s / ∑ exp s))) / (∑ m)`. -/
theorem row_law {ι : Type*} [Fintype ι] (s m : ι → ℝ) (hN : ∑ c, m c ≠ 0) :
    Ideal.log (∑ c, Ideal.exp (s c : EReal))
        - Ideal.div (∑ c, (m c : EReal) * (s c : EReal)) (∑ c, (m c : EReal))
      = Ideal.div (-(∑ c, (m c : EReal)
          * Ideal.log (Ideal.div (Ideal.exp (s c : EReal)) (∑ c', Ideal.exp (s c' : EReal)))))
        (∑ c, (m c : EReal)) := by
  obtain ⟨c₀, -, -⟩ := Finset.exists_ne_zero_of_sum_ne_zero hN
  have hZ : 0 < ∑ c, Real.exp (s c) :=
    Finset.sum_pos (fun c _ => Real.exp_pos (s c)) ⟨c₀, Finset.mem_univ c₀⟩
  have hE : (∑ c, Ideal.exp (s c : EReal)) = ((∑ c, Real.exp (s c) : ℝ) : EReal) := by
    rw [coe_sum]
    exact Finset.sum_congr rfl fun c _ => Ideal.exp_coe (s c)
  have hM : (∑ c, (m c : EReal)) = ((∑ c, m c : ℝ) : EReal) := (coe_sum _ _).symm
  have hMS : (∑ c, (m c : EReal) * (s c : EReal)) = ((∑ c, m c * s c : ℝ) : EReal) := by
    rw [coe_sum]
    exact Finset.sum_congr rfl fun c _ => (EReal.coe_mul _ _).symm
  have hL : ∀ c, Ideal.log (Ideal.div (Ideal.exp (s c : EReal)) (∑ c', Ideal.exp (s c' : EReal)))
      = ((s c - Real.log (∑ c', Real.exp (s c')) : ℝ) : EReal) := by
    intro c
    rw [hE, Ideal.exp_coe, div_coe_coe _ hZ.ne', log_coe_pos (div_pos (Real.exp_pos _) hZ),
      Real.log_div (Real.exp_pos _).ne' hZ.ne', Real.log_exp]
  have hR : (∑ c, (m c : EReal)
        * Ideal.log (Ideal.div (Ideal.exp (s c : EReal)) (∑ c', Ideal.exp (s c' : EReal))))
      = ((∑ c, m c * (s c - Real.log (∑ c', Real.exp (s c'))) : ℝ) : EReal) := by
    rw [coe_sum]
    exact Finset.sum_congr rfl fun c _ => by rw [hL c, ← EReal.coe_mul]
  rw [hR, hE, hM, hMS, log_coe_pos hZ, div_coe_coe _ hN, ← EReal.coe_neg, div_coe_coe _ hN,
    ← EReal.coe_sub]
  congr 1
  rw [Finset.sum_congr rfl (fun c _ => mul_sub (m c) (s c) _), Finset.sum_sub_distrib,
    ← Finset.sum_mul]
  field_simp
  ring

/-! ### The constants -/

/-- The guard is a positive real. -/
theorem eps_pos : ∃ e : ℝ, 0 < e ∧ eps = (e : EReal) := by
  simp [eps, Ideal.ofBits, Ideal.ieee, -EReal.coe_mul]

/-- The temperature word denotes `9395241 / 2^27`. -/
theorem temp_eq : temp = ((9395241 / 134217728 : ℝ) : EReal) := by
  simp [temp, Ideal.ofBits, Ideal.ieee, -EReal.coe_mul]; norm_num

/-- Multiplying by the inverse temperature is dividing by the temperature, for every extended real. -/
theorem mul_invTemp (a : EReal) : a * invTemp = Ideal.div a temp := by
  rw [temp_eq, Ideal.div_coe (by norm_num), invTemp]
  norm_num

/-! ### Finite inputs give real intermediate values -/

variable (x : Fin 8192 → Fin 512 → EReal) (l : Fin 8192 → BitVec 32)

/-- Finite inputs are real numbers. -/
theorem exists_real (hx : ∀ r d, x r d ≠ ⊤ ∧ x r d ≠ ⊥) :
    ∃ y : Fin 8192 → Fin 512 → ℝ, ∀ r d, x r d = (y r d : EReal) :=
  ⟨fun r d => (x r d).toReal, fun r d => (EReal.coe_toReal (hx r d).1 (hx r d).2).symm⟩

/-- The guarded norm of a real row is a positive real. -/
theorem nrm_real (y : Fin 8192 → Fin 512 → ℝ) (hy : ∀ r d, x r d = (y r d : EReal))
    (r : Fin 8192) : ∃ n : ℝ, 0 < n ∧ nrm x r = (n : EReal) := by
  obtain ⟨e, he, hee⟩ := eps_pos
  refine ⟨max (Real.sqrt (∑ d, y r d * y r d)) e, lt_max_of_lt_right he, ?_⟩
  have h1 : (∑ d, x r d * x r d) = ((∑ d, y r d * y r d : ℝ) : EReal) := by
    rw [coe_sum]
    exact Finset.sum_congr rfl fun d _ => by rw [hy r d, ← EReal.coe_mul]
  rw [nrm, h1, sqrt_coe_nonneg (Finset.sum_nonneg fun d _ => mul_self_nonneg _), hee,
    EReal.coe_strictMono.monotone.map_max]

/-- The inner products of the normalised rows are real. -/
theorem dot_real (hx : ∀ r d, x r d ≠ ⊤ ∧ x r d ≠ ⊥) :
    ∃ t : Fin 8192 → Fin 8192 → ℝ, ∀ r c, dot x r c = (t r c : EReal) := by
  obtain ⟨y, hy⟩ := exists_real x hx
  choose n hn hnn using nrm_real x y hy
  refine ⟨fun r c => ∑ d, (y r d / n r) * (y c d / n c), fun r c => ?_⟩
  rw [dot, coe_sum]
  refine Finset.sum_congr rfl fun d _ => ?_
  rw [unit, unit, hy r d, hy c d, hnn r, hnn c, div_coe_coe _ (hn r).ne',
    div_coe_coe _ (hn c).ne', ← EReal.coe_mul]

/-! ### The two spellings agree -/

/-- The mask is the coercion of a real `0`/`1` weight. -/
theorem msk_eq (r c : Fin 8192) :
    msk l r c = ((if l r = l c then 1 else 0 : ℝ) : EReal) := by
  unfold msk
  split_ifs <;> simp

/-- The quotient spelling of the similarity is the product spelling. -/
theorem simQ_eq_simP (r c : Fin 8192) : simQ x r c = simP x r c :=
  (mul_invTemp _).symm

/-- Row by row, the accumulated loss is the entry-by-entry loss. -/
theorem rowP_eq_rowQ (hx : ∀ r d, x r d ≠ ⊤ ∧ x r d ≠ ⊥) (r : Fin 8192) :
    rowP x l r = rowQ x l r := by
  obtain ⟨t, ht⟩ := dot_real x hx
  have hs : ∀ c, simP x r c = ((t r c * (134217728 / 9395241) : ℝ) : EReal) := fun c => by
    rw [simP, ht, invTemp, ← EReal.coe_mul]
  have hN : ∑ c, (if l r = l c then 1 else 0 : ℝ) ≠ 0 := by
    have h1 : (if l r = l r then 1 else 0 : ℝ) ≤ ∑ c, (if l r = l c then 1 else 0 : ℝ) :=
      Finset.single_le_sum (f := fun c => (if l r = l c then 1 else 0 : ℝ))
        (fun c _ => by split_ifs <;> norm_num) (Finset.mem_univ r)
    rw [if_pos rfl] at h1
    linarith
  have h := row_law (fun c => t r c * (134217728 / 9395241))
    (fun c => if l r = l c then 1 else 0) hN
  simp only [rowP, rowQ, simQ_eq_simP, hs, msk_eq]
  exact h

/-- On finite inputs the two spellings of the loss are the same extended real. -/
theorem lossP_eq_lossQ (x : Fin 8192 → Fin 512 → EReal) (l : Fin 8192 → BitVec 32)
    (hx : ∀ r d, x r d ≠ ⊤ ∧ x r d ≠ ⊥) : lossP x l = lossQ x l := by
  unfold lossP lossQ
  rw [Finset.sum_congr rfl fun r _ => rowP_eq_rowQ x l hx r]

end Cert.SupCon

end
-- ==== Proof.lean ====
/-
  The supervised-contrastive loss kernel against its jnp reference.

  On the extended reals the kernel program — rows normalised by the guarded Euclidean norm, then for
  each row `log (∑ exp s) - (∑ m·s) / (∑ m)` accumulated over column tiles, with `s` the inner product
  of normalised rows times the inverse temperature, then the mean over rows — and the reference —
  `(-(∑ m · log (exp s / ∑ exp s))) / (∑ m)` with `s` the inner product divided by the temperature,
  then the mean — compute one extended real on finite features: `log (exp s / Σ) = s - log Σ` for a
  positive finite `Σ`, and the inverse temperature is the reciprocal of the temperature.  All three
  programs run to the end and leave their arguments as launched.
-/
import proofs.«108453_j6356551598243_1_alg».proof.Defs
import proofs.«108453_j6356551598243_1_alg».proof.Proof.Gen.Kernel
import proofs.«108453_j6356551598243_1_alg».proof.Proof.Gen.Kernel.Skeleton
import proofs.«108453_j6356551598243_1_alg».proof.Proof.Gen.Kernel.Launch
import proofs.«108453_j6356551598243_1_alg».proof.Proof.Gen.Kernel.Regions
import proofs.«108453_j6356551598243_1_alg».proof.Proof.Gen.Kernel.Points
import proofs.«108453_j6356551598243_1_alg».proof.Proof.Gen.KernelIdeal
import proofs.«108453_j6356551598243_1_alg».proof.Proof.Gen.KernelIdeal.Skeleton
import proofs.«108453_j6356551598243_1_alg».proof.Proof.Gen.KernelIdeal.Launch
import proofs.«108453_j6356551598243_1_alg».proof.Proof.Gen.KernelIdeal.Regions
import proofs.«108453_j6356551598243_1_alg».proof.Proof.Gen.KernelIdeal.Points
import proofs.«108453_j6356551598243_1_alg».proof.Proof.Gen.ReferenceIdeal
import proofs.«108453_j6356551598243_1_alg».proof.Proof.Gen.ReferenceIdeal.Run
import proofs.«108453_j6356551598243_1_alg».proof.Proof.Gen.ReferenceIdeal.Read
import proofs.«108453_j6356551598243_1_alg».proof.Proof.Gen.Pre_finite_inputs
import proofs.«108453_j6356551598243_1_alg».proof.Proof.Run
import proofs.«108453_j6356551598243_1_alg».proof.Proof.RunBits
import proofs.«108453_j6356551598243_1_alg».proof.Proof.KernelValue
import proofs.«108453_j6356551598243_1_alg».proof.Proof.RefSide
import proofs.«108453_j6356551598243_1_alg».proof.Proof.LossLaw
import proofs.«108453_j6356551598243_1_alg».proof.Proof.HostSide
import Idealize.ShloMosaic.Adequacy
import Idealize.ShloMosaic.Init

noncomputable section

namespace Cert.Proof

open Idealize.ShloMosaic Idealize.SL.Sem

/-- The kernel program as printed runs to the end and leaves its arguments as launched. -/
theorem frame_Kernel : Cert.frame_Kernel := fun m ρ _ => Cert.Kernel.Run.frame m ρ

/-- So does its idealization. -/
theorem frame_KernelIdeal : Cert.frame_KernelIdeal := fun m ρ _ => Cert.KernelIdeal.Run.frame m ρ

/-- So does the reference: its run, read at the arguments only. -/
theorem frame_ReferenceIdeal : Cert.frame_ReferenceIdeal := fun m ρ _ =>
  (θ_run Cert.ReferenceIdeal.defs _ _).mono (fun _ h c => (h c).2) (Cert.ReferenceIdeal.RefValue.run_spec m ρ)

/-- The one named constant: the inverse temperature denotes the reciprocal of the temperature's value. -/
theorem preserves : Cert.preserves_Kernel_KernelIdeal :=
  IdealRules.named_const.statement Cert.KernelIdeal.κ "inv_temperature" .f32 0x41649249#32
    ((134217728 / 9395241 : ℝ) : EReal) rfl

/-- On the extended reals the kernel program ends at the accumulated spelling of the loss and the reference at the
    quotient spelling, of arguments that agree and are finite: one extended real. -/
theorem algebraic : Cert.algebraic_KernelIdeal_ReferenceIdeal := by
  intro m ρ m' ρ' hpre hagree
  refine ⟨fun c => fun _ => Cert.SupCon.lossP (Cert.KernelIdeal.Run.xs m c) (Cert.KernelIdeal.Run.ls m c), ?_, ?_⟩
  · exact (θ_run Cert.KernelIdeal.defs _ _).mono
      (fun _ h c => ⟨(h c).1.trans (Cert.KernelIdeal.Run.result_eq m ρ c), (h c).2⟩)
      (Cert.KernelIdeal.Run.run_result m ρ)
  · refine (θ_run Cert.ReferenceIdeal.defs _ _).mono (fun _ h c => ⟨(h c).1.trans ?_, (h c).2⟩)
      (Cert.ReferenceIdeal.RefValue.run_spec m' ρ')
    rw [(hagree c).1, (hagree c).2]
    funext _
    exact (Cert.SupCon.lossP_eq_lossQ _ _ (fun r d => Cert.KernelIdeal.Host.finite_of_pre m hpre c r d)).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
